-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S128x4096 : Shape := ⟨2, ![128, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 26
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .i1⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S4096x4096, .bf16⟩
  | .hbm, ⟨25, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S1024x256, .f32⟩
  | .local _ .vmem, ⟨9, _⟩ => ⟨S1024x256, .f32⟩
  | .local _ .vmem, ⟨10, _⟩ => ⟨S2048x256, .bf16⟩
  | .local _ .vmem, ⟨11, _⟩ => ⟨S2048x256, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096 : S_.BroadcastsInDim S4096 (![] : Fin 0 → Fin S4096.rank)
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .bf16 = 32 ∨ (Rect.block (s := S4096x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KRegion0.lean ====
/-
  The first kernel launch: the weight sampler.  Its grid has 32 points; at point t each of its three input windows
  holds rows 128 t .. 128 t + 127 of its [4096, 4096] array, and the body stores into the output window's block, whole,
  one pointwise function of the three input blocks.  Stated here, at any contents V of the core's buffers when the
  launch is entered: what each window's staging buffer holds after the body at every point, and that the body, run
  on those buffers, leaves exactly that.  Nothing is carried from one point to the next.
-/
import proofs.«109385_j36223754174952_2_alg».proof.Proof.Gen.Kernel.Launch
import proofs.«109385_j36223754174952_2_alg».proof.Proof.Gen.Kernel.Skeleton
import proofs.«109385_j36223754174952_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole [128, 4096] block. -/
abbrev r0 : Rect S128x4096 := Rect.unit (s := S128x4096) ![0, 0] S128x4096.size inb_S128x4096_S128x4096_0_0

/-- The output window's staging buffer after the body, from the three input blocks: its one store. -/
def out0_3 (x0 x1 x2 : Vec F S128x4096 .f32) : Vec F S128x4096 .bf16 :=
  View.canon [⟨r0, k0_pay1 (View.ld x0 r0) (View.ld x1 r0) (View.ld x2 r0)⟩]

/-- The store covers the block. -/
theorem cover0_3 (p0 : Vec F S128x4096 .bf16) (y : S128x4096.Idx) :
    ∃ pc ∈ ([⟨r0, p0⟩] : List (View.Piece (Elt F) S128x4096 .bf16)), y ∈ pc.1.set :=
  View.cover_of_tiled [⟨r0, p0⟩] S128x4096.size (by rfl) y

set_option maxHeartbeats 1000000 in
/-- The body on whole staging buffers, the inputs' at contents x0, x1, x2 and the output's at anything, runs to the
    continuation holding the inputs' as they were and the output's at `out0_3 x0 x1 x2`. -/
theorem sound_kernel0 (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .bf16) (harg4 : arg4.IsWhole)
    (x0 x1 x2 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__sample_weight_kernel i arg1 harg1 arg2 harg2 arg3 harg3 arg4 harg4) K := by
  simp only [cc0__sample_weight_kernel_eq_skeleton]; unfold cc0__sample_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first launch on core c: the arrays as the launch finds them; after the body at point t each
    input's buffer at its block and the output's at `out0_3` of the three input blocks; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; what is kept beside the
    windows passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRuns1.lean ====
/-
  The second kernel launch: the matrix product.  Its grid is 8 × 2 × 16: point (i, j, k) multiplies rows
  1024 i .. of the activations by rows 2048 j .. of the sampled weight over the columns 256 k .. 256 k + 255, and adds
  the product into an accumulator the kernel keeps in a scratch buffer from one point to the next.  The accumulator
  is zeroed where k = 0 and, where k = 15, it plus the bias row is stored into the output window's block, which is
  written back only there; at every other point the body leaves the output window's buffer alone.
  Here: the two branch conditions decided over the 256 points, where the output window is idle, the buffers the body
  is called with, and what the launch hands the body beside the windows (the scratch at some contents, the other
  launch's staging buffers unopened, the generator register).
-/
import proofs.«109385_j36223754174952_2_alg».proof.Proof.Gen.Kernel.Launch
import proofs.«109385_j36223754174952_2_alg».proof.Proof.Gen.Kernel.Skeleton
import proofs.«109385_j36223754174952_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "k = 0": the accumulator is zeroed. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "k = 15": the output block is stored. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 15 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 15 it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x2048 .f32 := (Memref.whole cc1_stg3_0 : Memref sig .tc .vmem S1024x2048 .f32).view
/-- Each window's current staging buffer at point t, as the body is called with it. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The scoped buffers that are neither a staging buffer of this launch nor its accumulator, each at some contents,
    unopened: the other launch's staging buffers. -/
abbrev others1 (c : Dev nD) : sProp 𝕄 :=
  Pipeline.scopedRestBut (Ix := Unit) (Name := ℕ) (U := UR sig nD τ) (Lvl := ℕ) (Val := Elt F) spec1 c [cc1_scratch0]

/-- What the launch hands the body beside the windows: the accumulator at some contents, those other buffers, the
    generator register. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  try rfl

end Cert.Kernel.Hand

end
-- ==== Proof.KRun1.lean ====
/-
  The matrix-product kernel's body run whole, in each of the three cases its two conditions meet on the grid:
  k = 0 (the accumulator is zeroed, then added to), 0 < k < 15 (added to), k = 15 (added to, then the output block is
  stored).  Each run is stated on whole staging buffers, the inputs' at given contents, and yields the pieces the
  body's stores leave in the accumulator (and, where k = 15, in the output window's buffer), last store first.
-/
import proofs.«109385_j36223754174952_2_alg».proof.Proof.KRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: the accumulator is found at anything; the output window's buffer is handed back as found. -/
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    { LS0 : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare d3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare d3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun d3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- 0 < k < 15: the accumulator is found at what the point before left. -/
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    { LS0 : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare d3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun d3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- k = 15: the accumulator is found at what the point before left; the output window's buffer, found at anything, is stored into. -/
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.KRegion1.lean ====
/-
  The matrix-product launch, point by point.  After the body at point t the accumulator holds what the case of t leaves
  in it — at a point with k = 0 computed from the point's input blocks alone, elsewhere from them and from what the
  point before left — and, where k = 15, the output window's buffer holds what that case stores.  This recursion on the
  point is `outsAt1`.  The launch's proof data state it, the invariant kept beside the windows carries the accumulator
  at the recursion's value, and the body obligation follows by cases on k from the three whole-body runs.
-/
import proofs.«109385_j36223754174952_2_alg».proof.Proof.KRun1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- k = 0: the pieces stored into the accumulator cover it. -/
theorem scover1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) (y : S1024x2048.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x2048.size (by sl_kernel_rfl) y
/-- What it leaves in the accumulator. -/
def sout1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).1)

/-- 0 < k < 15: the same, over what the point before left. -/
theorem scover1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x2048.size (by sl_kernel_rfl) y
def sout1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).1)

/-- k = 15: the pieces stored into the output window's buffer cover it, -/
theorem cover1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
/-- and what they leave there; -/
def out1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)
/-- the accumulator's pieces likewise. -/
theorem scover1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
def sout1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- Where the output window is idle nothing consults its recorded contents: a fixed placeholder. -/
def idleOut : Vec F S1024x2048 .f32 := VO1_3.read (Elt F) VO1_3.junk

/-! ## The cases at a point of the grid -/

theorem c1_of_mod0 (t : Fin cfg1.N) (h0 : t.val % 16 = 0) : ¬cond1_1 (grid1.coords t) :=
  fun h => by have h15 := (hcond1_1 t).mp h; omega
theorem c0_of_mod (t : Fin cfg1.N) (h0 : ¬t.val % 16 = 0) : ¬cond1_0 (grid1.coords t) := fun h => h0 ((hcond1_0 t).mp h)
theorem c1_of_mod (t : Fin cfg1.N) (h1 : ¬t.val % 16 = 15) : ¬cond1_1 (grid1.coords t) := fun h => h1 ((hcond1_1 t).mp h)

/-- The accumulator after a point with k = 0, from the point's input blocks. -/
def accA (c : Dev nD) (t : Fin cfg1.N) (h0 : t.val % 16 = 0) : Vec F S1024x2048 .f32 :=
  sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (c1_of_mod0 t h0) (iblk1 V c 0 t) (iblk1 V c 1 t) (iblk1 V c 2 t)
/-- After a point with 0 < k < 15, from its input blocks and what the point before left. -/
def accB (c : Dev nD) (t : Fin cfg1.N) (h0 : ¬t.val % 16 = 0) (h1 : ¬t.val % 16 = 15) (xs : Vec F S1024x2048 .f32) : Vec F S1024x2048 .f32 :=
  sout1_B c (grid1.coords t) (ms1_0 t) (hs1_0 t) (ms1_1 t) (hs1_1 t) (ms1_2 t) (hs1_2 t) (ms1_3 t) (hs1_3 t) scM1_0 (Memref.isWhole_whole _) (c0_of_mod t h0) (c1_of_mod t h1) (iblk1 V c 0 t) (iblk1 V c 1 t) (iblk1 V c 2 t) xs
/-- After a point with k = 15, -/
def accC (c : Dev nD) (t : Fin cfg1.N) (h0 : ¬t.val % 16 = 0) (h1 : t.val % 16 = 15) (xs : Vec F S1024x2048 .f32) : Vec F S1024x2048 .f32 :=
  sout1_C c (grid1.coords t) (ms1_0 t) (hs1_0 t) (ms1_1 t) (hs1_1 t) (ms1_2 t) (hs1_2 t) (ms1_3 t) (hs1_3 t) scM1_0 (Memref.isWhole_whole _) (c0_of_mod t h0) ((hcond1_1 t).mpr h1) (iblk1 V c 0 t) (iblk1 V c 1 t) (iblk1 V c 2 t) xs
/-- and what that point stores into the output window's buffer. -/
def outC (c : Dev nD) (t : Fin cfg1.N) (h0 : ¬t.val % 16 = 0) (h1 : t.val % 16 = 15) (xs : Vec F S1024x2048 .f32) : Vec F S1024x2048 .f32 :=
  out1_C_3 c (grid1.coords t) (ms1_0 t) (hs1_0 t) (ms1_1 t) (hs1_1 t) (ms1_2 t) (hs1_2 t) (ms1_3 t) (hs1_3 t) scM1_0 (Memref.isWhole_whole _) (c0_of_mod t h0) ((hcond1_1 t).mpr h1) (iblk1 V c 0 t) (iblk1 V c 1 t) (iblk1 V c 2 t) xs

/-- THE ACCUMULATION: what the output window's buffer and the accumulator hold after the body at position n (a pair). -/
def outsAt1 (c : Dev nD) : (n : ℕ) → n < cfg1.N → Vec F S1024x2048 .f32 × Vec F S1024x2048 .f32
  | 0, hn => (idleOut, accA V c ⟨0, hn⟩ (Nat.zero_mod _))
  | n + 1, hn =>
    if h0 : (n + 1) % 16 = 0 then (idleOut, accA V c ⟨n + 1, hn⟩ h0)
    else if h1 : (n + 1) % 16 = 15 then
      (outC V c ⟨n + 1, hn⟩ h0 h1 (outsAt1 c n (Nat.lt_of_succ_lt hn)).2, accC V c ⟨n + 1, hn⟩ h0 h1 (outsAt1 c n (Nat.lt_of_succ_lt hn)).2)
    else (idleOut, accB V c ⟨n + 1, hn⟩ h0 h1 (outsAt1 c n (Nat.lt_of_succ_lt hn)).2)

theorem outsAt1_A (c : Dev nD) (t : Fin cfg1.N) (h0 : t.val % 16 = 0) :
    outsAt1 V c t.val t.isLt = (idleOut, accA V c t h0) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idleOut, accB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC V c t h0 h1 (outsAt1 V c (t.val - 1) (Nat.lt_of_le_of_lt (Nat.sub_le _ _) t.isLt)).2,
      accC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## What is kept beside the windows -/

/-- Before the first point what the launch hands over; before position n + 1 the accumulator at what position n left,
    the other launch's staging buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.KBody1.lean ====
/-
  The matrix-product kernel's body meets the launch's proof data at every point: by cases on k the point's run applies,
  handed the accumulator at what the point before left (at anything where k = 0) and giving it back at this point's
  value; where k ≠ 15 the output window's buffer is handed back as found.
-/
import proofs.«109385_j36223754174952_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · -- k = 0
    rw [Dat.leavesExact_idle (dat1 V c) 3 t (idleAt1_3 t (c1_of_mod0 t h0)) (noFlush1_3 t (c1_of_mod0 t h0))]
    rw [outsAt1_A V c t h0]
    unfold accA sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (c1_of_mod0 t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (c1_of_mod0 t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · -- k = 15
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outC accC out1_C_3 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (c0_of_mod t h0) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- 0 < k < 15
      rw [Dat.leavesExact_idle (dat1 V c) 3 t (idleAt1_3 t (c1_of_mod t h1)) (noFlush1_3 t (c1_of_mod t h1))]
      rw [outsAt1_B V c t h0 h1]
      unfold accB sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (c0_of_mod t h0) (c1_of_mod t h1) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands over is what is kept before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point what is kept gives that back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hoth⟩, Hg⟩
  isplitl [HS0 Hoth]
  · isplitl [HS0]
    · iexists _; iexact HS0
    iexact Hoth
  iexact Hg

end Cert.Kernel.Hand

end
-- ==== Proof.KMain.lean ====
/-
  The whole program run.  @main is four items: the host lines that compute softplus of the bias parameters, the host
  lines that finish the bias row, the weight-sampler launch, the matrix-product launch.  The contents of the core's
  buffers at each boundary are a fold from the launch memory: a stretch of host lines applies its operations, a launch
  puts each of its windows' arrays at what its write-backs leave and keeps every other buffer.  Each launch is entered
  from every unscoped buffer held at the boundary's contents and left at the next boundary's; the run ends with every
  unscoped buffer at the fold's last value, from which the arguments and the result are read.
-/
import proofs.«109385_j36223754174952_2_alg».proof.Proof.KRegion0
import proofs.«109385_j36223754174952_2_alg».proof.Proof.KBody1
import proofs.«109385_j36223754174952_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Entering the first launch: the launch memory after both stretches of host lines, read at a TensorCore reference. -/
abbrev V2r : (c : Dev nD) → (b : Ref sig .tc) → Buf (Elt F) ((c : Thread nD τ).loc b) := fun c b => Gen.V2 m c b
/-- Leaving it: its arrays at what its write-backs leave, every other buffer as entered. -/
def W3 (c : Dev nD) : Valuation τ sig (Elt F) :=
  Pipeline.withArrays spec0 c (Gen.V2 m c) fun w => (dat0 (V2r m) c).arrAt w cfg0.N
theorem W3_arr (c : Dev nD) (w : Fin cfg0.W) :
    W3 m c (Proc.devRef .tc (Pipeline.arrRef spec0 w)) = (dat0 (V2r m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = Gen.V2 m c (Proc.devRef .tc b) := by
  unfold W3; exact Pipeline.withArrays_of_ne spec0 c _ _ b hb
abbrev V3r : (c : Dev nD) → (b : Ref sig .tc) → Buf (Elt F) ((c : Thread nD τ).loc b) := fun c b => W3 m c b
theorem hF0 (c : Dev nD) (w : Fin cfg0.W) : (dat0 (V2r m) c).arrAt w cfg0.N = V3r m c (Pipeline.arrRef spec0 w) :=
  (W3_arr m c w).symm
theorem hrest0 (c : Dev nD) : ∀ b, b ∉ Finset.univ.image (Pipeline.arrRef spec0) → V3r m c b = V2r m c b :=
  fun b hb => W3_of_ne m c b fun w e => hb (Finset.mem_image.mpr ⟨w, Finset.mem_univ _, e⟩)

/-- Leaving the second launch: its arrays at what its write-backs leave, every other buffer as entered. -/
def W4 (c : Dev nD) : Valuation τ sig (Elt F) :=
  Pipeline.withArrays spec1 c (W3 m c) fun w => (dat1 (V3r m) c).arrAt w cfg1.N
theorem W4_arr (c : Dev nD) (w : Fin cfg1.W) :
    W4 m c (Proc.devRef .tc (Pipeline.arrRef spec1 w)) = (dat1 (V3r m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4r : (c : Dev nD) → (b : Ref sig .tc) → Buf (Elt F) ((c : Thread nD τ).loc b) := fun c b => W4 m c b
theorem hF1 (c : Dev nD) (w : Fin cfg1.W) : (dat1 (V3r m) c).arrAt w cfg1.N = V4r m c (Pipeline.arrRef spec1 w) :=
  (W4_arr m c w).symm
theorem hrest1 (c : Dev nD) : ∀ b, b ∉ Finset.univ.image (Pipeline.arrRef spec1) → V4r m c b = V3r m c b :=
  fun b hb => W4_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V2r m) c
  | ⟨1, _⟩ => fun c => dat1 (V3r m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host lines as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The launches as items -/

set_option backward.isDefEq.respectTransparency.types false in
/-- The weight sampler: entered from every unscoped buffer after the host lines, left with its result array filled. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2r m) c).loose
  hwaits := Pipeline.hwaits_of_owed_zero _ _ _ _ L lv 0 fun _ _ => rfl
  pre c := iprop(StableHlo.held (c : Thread nD τ) (Pipeline.ucRefs τ sig) (Gen.V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2r m c) (V3r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product: entered from there, left with the result array filled. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec1 c ∗ ∃ r, prngReg c r) ⊢ (pdats m 1 c).Φ 0 :=
      hin1 (V3r m) c
    iintro ⟨Hp, -, Hr⟩
    iapply h
    isplitl [Hr]; · iexact Hr
    iexact Hp
  hout c := by
    rw [Pipeline.ownSems0_none]
    have h : (pdats m 1 c).Φ (Fin.last _) ⊢ iprop(Pipeline.scopedRest (Ix := Unit) (Name := ℕ) (U := UR sig nD τ) (Lvl := ℕ) (Val := Elt F) spec1 c ∗ ∃ r, prngReg c r) :=
      hout1 (V3r m) c
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3r m c) (V4r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer holds the fold's last value. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KFrame.lean ====
/-
  The frame, and the result array, read off the run.  No host line and no launch writes an argument: a launch reads it
  through an input window or leaves it alone, so the fold at an argument's buffer walks back to the launch memory.  The
  result array is the matrix-product launch's output window's array at what its write-backs leave.
-/
import proofs.«109385_j36223754174952_2_alg».proof.Proof.KMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The activations: an input window of the second launch, untouched before it. -/
theorem W4_main_arg0 (c : Dev nD) : W4 m c (Proc.devRef .tc main_arg0) = m ((c : Thread nD τ).loc main_arg0) :=
  calc W4 m c (Proc.devRef .tc main_arg0)
    _ = (dat1 (V3r m) c).arrAt 0 cfg1.N := W4_arr m c 0
    _ = (dat1 (V3r m) c).A 0 := (dat1 (V3r m) c).arrAt_in 0 rfl _
    _ = W3 m c (Proc.devRef .tc main_arg0) := A_eq1 (V3r m) c 0
    _ = Gen.V2 m c (Proc.devRef .tc main_arg0) := W3_of_ne m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl
/-- The three weight parameters: input windows of the first launch. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = (dat0 (V2r m) c).arrAt 0 cfg0.N := W3_arr m c 0
    _ = (dat0 (V2r m) c).A 0 := (dat0 (V2r m) c).arrAt_in 0 rfl _
    _ = Gen.V2 m c (Proc.devRef .tc main_arg1) := A_eq0 (V2r m) c 0
    _ = Gen.V1 m c (Proc.devRef .tc main_arg1) := Gen.V2_of m c main_arg1 (by decide)
    _ = Gen.V0 m c (Proc.devRef .tc main_arg1) := Gen.V1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = (dat0 (V2r m) c).arrAt 1 cfg0.N := W3_arr m c 1
    _ = (dat0 (V2r m) c).A 1 := (dat0 (V2r m) c).arrAt_in 1 rfl _
    _ = Gen.V2 m c (Proc.devRef .tc main_arg2) := A_eq0 (V2r m) c 1
    _ = Gen.V1 m c (Proc.devRef .tc main_arg2) := Gen.V2_of m c main_arg2 (by decide)
    _ = Gen.V0 m c (Proc.devRef .tc main_arg2) := Gen.V1_of m c main_arg2 (by decide)
    _ = m ((c : Thread nD τ).loc main_arg2) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = (dat0 (V2r m) c).arrAt 2 cfg0.N := W3_arr m c 2
    _ = (dat0 (V2r m) c).A 2 := (dat0 (V2r m) c).arrAt_in 2 rfl _
    _ = Gen.V2 m c (Proc.devRef .tc main_arg5) := A_eq0 (V2r m) c 2
    _ = Gen.V1 m c (Proc.devRef .tc main_arg5) := Gen.V2_of m c main_arg5 (by decide)
    _ = Gen.V0 m c (Proc.devRef .tc main_arg5) := Gen.V1_of m c main_arg5 (by decide)
    _ = m ((c : Thread nD τ).loc main_arg5) := rfl
/-- The three bias parameters: read by host lines only. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = Gen.V2 m c (Proc.devRef .tc main_arg3) := W3_of_ne m c main_arg3 (by decide)
    _ = Gen.V1 m c (Proc.devRef .tc main_arg3) := Gen.V2_of m c main_arg3 (by decide)
    _ = Gen.V0 m c (Proc.devRef .tc main_arg3) := Gen.V1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = Gen.V2 m c (Proc.devRef .tc main_arg4) := W3_of_ne m c main_arg4 (by decide)
    _ = Gen.V1 m c (Proc.devRef .tc main_arg4) := Gen.V2_of m c main_arg4 (by decide)
    _ = Gen.V0 m c (Proc.devRef .tc main_arg4) := Gen.V1_of m c main_arg4 (by decide)
    _ = m ((c : Thread nD τ).loc main_arg4) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = Gen.V2 m c (Proc.devRef .tc main_arg6) := W3_of_ne m c main_arg6 (by decide)
    _ = Gen.V1 m c (Proc.devRef .tc main_arg6) := Gen.V2_of m c main_arg6 (by decide)
    _ = Gen.V0 m c (Proc.devRef .tc main_arg6) := Gen.V1_of m c main_arg6 (by decide)
    _ = m ((c : Thread nD τ).loc main_arg6) := rfl

/-- Every weakly fair execution of @main terminates, nothing faulting, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

/-- The same run with the result array named: what the second launch's write-backs leave in it. -/
theorem run_result (ρ : Dev nD → PrngReg) : θ_run defs (onTc (τ := τ) (main (F := F))) ⟨m, fun _ => 0, ρ⟩ (fun r => ∀ c : Dev nD,
      r.2.mem ((c.tc : Thread nD τ).loc main_v5) = (dat1 (V3r m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v5 (by decide))).trans (W4_arr m c 3),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

end Cert.Kernel.Hand

end
-- ==== Proof.KIRegion0.lean ====
/-
  The first kernel launch: the weight sampler.  Its grid has 32 points; at point t each of its three input windows
  holds rows 128 t .. 128 t + 127 of its [4096, 4096] array, and the body stores into the output window's block, whole,
  one pointwise function of the three input blocks.  Stated here, at any contents V of the core's buffers when the
  launch is entered: what each window's staging buffer holds after the body at every point, and that the body, run
  on those buffers, leaves exactly that.  Nothing is carried from one point to the next.
-/
import proofs.«109385_j36223754174952_2_alg».proof.Proof.Gen.KernelIdeal.Launch
import proofs.«109385_j36223754174952_2_alg».proof.Proof.Gen.KernelIdeal.Skeleton
import proofs.«109385_j36223754174952_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole [128, 4096] block. -/
abbrev r0 : Rect S128x4096 := Rect.unit (s := S128x4096) ![0, 0] S128x4096.size inb_S128x4096_S128x4096_0_0

/-- The output window's staging buffer after the body, from the three input blocks: its one store. -/
def out0_3 (x0 x1 x2 : Vec F S128x4096 .f32) : Vec F S128x4096 .bf16 :=
  View.canon [⟨r0, k0_pay1 (View.ld x0 r0) (View.ld x1 r0) (View.ld x2 r0)⟩]

/-- The store covers the block. -/
theorem cover0_3 (p0 : Vec F S128x4096 .bf16) (y : S128x4096.Idx) :
    ∃ pc ∈ ([⟨r0, p0⟩] : List (View.Piece (Elt F) S128x4096 .bf16)), y ∈ pc.1.set :=
  View.cover_of_tiled [⟨r0, p0⟩] S128x4096.size (by rfl) y

set_option maxHeartbeats 1000000 in
/-- The body on whole staging buffers, the inputs' at contents x0, x1, x2 and the output's at anything, runs to the
    continuation holding the inputs' as they were and the output's at `out0_3 x0 x1 x2`. -/
theorem sound_kernel0 (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .bf16) (harg4 : arg4.IsWhole)
    (x0 x1 x2 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__sample_weight_kernel i arg1 harg1 arg2 harg2 arg3 harg3 arg4 harg4) K := by
  simp only [cc0__sample_weight_kernel_eq_skeleton]; unfold cc0__sample_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first launch on core c: the arrays as the launch finds them; after the body at point t each
    input's buffer at its block and the output's at `out0_3` of the three input blocks; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; what is kept beside the
    windows passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRuns1.lean ====
/-
  The second kernel launch: the matrix product.  Its grid is 8 × 2 × 16: point (i, j, k) multiplies rows
  1024 i .. of the activations by rows 2048 j .. of the sampled weight over the columns 256 k .. 256 k + 255, and adds
  the product into an accumulator the kernel keeps in a scratch buffer from one point to the next.  The accumulator
  is zeroed where k = 0 and, where k = 15, it plus the bias row is stored into the output window's block, which is
  written back only there; at every other point the body leaves the output window's buffer alone.
  Here: the two branch conditions decided over the 256 points, where the output window is idle, the buffers the body
  is called with, and what the launch hands the body beside the windows (the scratch at some contents, the other
  launch's staging buffers unopened, the generator register).
-/
import proofs.«109385_j36223754174952_2_alg».proof.Proof.Gen.KernelIdeal.Launch
import proofs.«109385_j36223754174952_2_alg».proof.Proof.Gen.KernelIdeal.Skeleton
import proofs.«109385_j36223754174952_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "k = 0": the accumulator is zeroed. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "k = 15": the output block is stored. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 15 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 15 it is live. -/
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x2048 .f32 := (Memref.whole cc1_stg3_0 : Memref sig .tc .vmem S1024x2048 .f32).view
/-- Each window's current staging buffer at point t, as the body is called with it. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The scoped buffers that are neither a staging buffer of this launch nor its accumulator, each at some contents,
    unopened: the other launch's staging buffers. -/
abbrev others1 (c : Dev nD) : sProp 𝕄 :=
  Pipeline.scopedRestBut (Ix := Unit) (Name := ℕ) (U := UR sig nD τ) (Lvl := ℕ) (Val := Elt F) spec1 c [cc1_scratch0]

/-- What the launch hands the body beside the windows: the accumulator at some contents, those other buffers, the
    generator register. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  try rfl

end Cert.KernelIdeal.Hand

end
-- ==== Proof.KIRun1.lean ====
/-
  The matrix-product kernel's body run whole, in each of the three cases its two conditions meet on the grid:
  k = 0 (the accumulator is zeroed, then added to), 0 < k < 15 (added to), k = 15 (added to, then the output block is
  stored).  Each run is stated on whole staging buffers, the inputs' at given contents, and yields the pieces the
  body's stores leave in the accumulator (and, where k = 15, in the output window's buffer), last store first.
-/
import proofs.«109385_j36223754174952_2_alg».proof.Proof.KIRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: the accumulator is found at anything; the output window's buffer is handed back as found. -/
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    { LS0 : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare d3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare d3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun d3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- 0 < k < 15: the accumulator is found at what the point before left. -/
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    { LS0 : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare d3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun d3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- k = 15: the accumulator is found at what the point before left; the output window's buffer, found at anything, is stored into. -/
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KIRegion1.lean ====
/-
  The matrix-product launch, point by point.  After the body at point t the accumulator holds what the case of t leaves
  in it — at a point with k = 0 computed from the point's input blocks alone, elsewhere from them and from what the
  point before left — and, where k = 15, the output window's buffer holds what that case stores.  This recursion on the
  point is `outsAt1`.  The launch's proof data state it, the invariant kept beside the windows carries the accumulator
  at the recursion's value, and the body obligation follows by cases on k from the three whole-body runs.
-/
import proofs.«109385_j36223754174952_2_alg».proof.Proof.KIRun1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- k = 0: the pieces stored into the accumulator cover it. -/
theorem scover1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) (y : S1024x2048.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x2048.size (by sl_kernel_rfl) y
/-- What it leaves in the accumulator. -/
def sout1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).1)

/-- 0 < k < 15: the same, over what the point before left. -/
theorem scover1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x2048.size (by sl_kernel_rfl) y
def sout1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).1)

/-- k = 15: the pieces stored into the output window's buffer cover it, -/
theorem cover1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
/-- and what they leave there; -/
def out1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)
/-- the accumulator's pieces likewise. -/
theorem scover1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
def sout1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- Where the output window is idle nothing consults its recorded contents: a fixed placeholder. -/
def idleOut : Vec F S1024x2048 .f32 := VO1_3.read (Elt F) VO1_3.junk

/-! ## The cases at a point of the grid -/

theorem c1_of_mod0 (t : Fin cfg1.N) (h0 : t.val % 16 = 0) : ¬cond1_1 (grid1.coords t) :=
  fun h => by have h15 := (hcond1_1 t).mp h; omega
theorem c0_of_mod (t : Fin cfg1.N) (h0 : ¬t.val % 16 = 0) : ¬cond1_0 (grid1.coords t) := fun h => h0 ((hcond1_0 t).mp h)
theorem c1_of_mod (t : Fin cfg1.N) (h1 : ¬t.val % 16 = 15) : ¬cond1_1 (grid1.coords t) := fun h => h1 ((hcond1_1 t).mp h)

/-- The accumulator after a point with k = 0, from the point's input blocks. -/
def accA (c : Dev nD) (t : Fin cfg1.N) (h0 : t.val % 16 = 0) : Vec F S1024x2048 .f32 :=
  sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (c1_of_mod0 t h0) (iblk1 V c 0 t) (iblk1 V c 1 t) (iblk1 V c 2 t)
/-- After a point with 0 < k < 15, from its input blocks and what the point before left. -/
def accB (c : Dev nD) (t : Fin cfg1.N) (h0 : ¬t.val % 16 = 0) (h1 : ¬t.val % 16 = 15) (xs : Vec F S1024x2048 .f32) : Vec F S1024x2048 .f32 :=
  sout1_B c (grid1.coords t) (ms1_0 t) (hs1_0 t) (ms1_1 t) (hs1_1 t) (ms1_2 t) (hs1_2 t) (ms1_3 t) (hs1_3 t) scM1_0 (Memref.isWhole_whole _) (c0_of_mod t h0) (c1_of_mod t h1) (iblk1 V c 0 t) (iblk1 V c 1 t) (iblk1 V c 2 t) xs
/-- After a point with k = 15, -/
def accC (c : Dev nD) (t : Fin cfg1.N) (h0 : ¬t.val % 16 = 0) (h1 : t.val % 16 = 15) (xs : Vec F S1024x2048 .f32) : Vec F S1024x2048 .f32 :=
  sout1_C c (grid1.coords t) (ms1_0 t) (hs1_0 t) (ms1_1 t) (hs1_1 t) (ms1_2 t) (hs1_2 t) (ms1_3 t) (hs1_3 t) scM1_0 (Memref.isWhole_whole _) (c0_of_mod t h0) ((hcond1_1 t).mpr h1) (iblk1 V c 0 t) (iblk1 V c 1 t) (iblk1 V c 2 t) xs
/-- and what that point stores into the output window's buffer. -/
def outC (c : Dev nD) (t : Fin cfg1.N) (h0 : ¬t.val % 16 = 0) (h1 : t.val % 16 = 15) (xs : Vec F S1024x2048 .f32) : Vec F S1024x2048 .f32 :=
  out1_C_3 c (grid1.coords t) (ms1_0 t) (hs1_0 t) (ms1_1 t) (hs1_1 t) (ms1_2 t) (hs1_2 t) (ms1_3 t) (hs1_3 t) scM1_0 (Memref.isWhole_whole _) (c0_of_mod t h0) ((hcond1_1 t).mpr h1) (iblk1 V c 0 t) (iblk1 V c 1 t) (iblk1 V c 2 t) xs

/-- THE ACCUMULATION: what the output window's buffer and the accumulator hold after the body at position n (a pair). -/
def outsAt1 (c : Dev nD) : (n : ℕ) → n < cfg1.N → Vec F S1024x2048 .f32 × Vec F S1024x2048 .f32
  | 0, hn => (idleOut, accA V c ⟨0, hn⟩ (Nat.zero_mod _))
  | n + 1, hn =>
    if h0 : (n + 1) % 16 = 0 then (idleOut, accA V c ⟨n + 1, hn⟩ h0)
    else if h1 : (n + 1) % 16 = 15 then
      (outC V c ⟨n + 1, hn⟩ h0 h1 (outsAt1 c n (Nat.lt_of_succ_lt hn)).2, accC V c ⟨n + 1, hn⟩ h0 h1 (outsAt1 c n (Nat.lt_of_succ_lt hn)).2)
    else (idleOut, accB V c ⟨n + 1, hn⟩ h0 h1 (outsAt1 c n (Nat.lt_of_succ_lt hn)).2)

theorem outsAt1_A (c : Dev nD) (t : Fin cfg1.N) (h0 : t.val % 16 = 0) :
    outsAt1 V c t.val t.isLt = (idleOut, accA V c t h0) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idleOut, accB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC V c t h0 h1 (outsAt1 V c (t.val - 1) (Nat.lt_of_le_of_lt (Nat.sub_le _ _) t.isLt)).2,
      accC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## What is kept beside the windows -/

/-- Before the first point what the launch hands over; before position n + 1 the accumulator at what position n left,
    the other launch's staging buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KIBody1.lean ====
/-
  The matrix-product kernel's body meets the launch's proof data at every point: by cases on k the point's run applies,
  handed the accumulator at what the point before left (at anything where k = 0) and giving it back at this point's
  value; where k ≠ 15 the output window's buffer is handed back as found.
-/
import proofs.«109385_j36223754174952_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · -- k = 0
    rw [Dat.leavesExact_idle (dat1 V c) 3 t (idleAt1_3 t (c1_of_mod0 t h0)) (noFlush1_3 t (c1_of_mod0 t h0))]
    rw [outsAt1_A V c t h0]
    unfold accA sout1_A; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (c1_of_mod0 t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (c1_of_mod0 t h0) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · -- k = 15
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outC accC out1_C_3 sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (c0_of_mod t h0) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- 0 < k < 15
      rw [Dat.leavesExact_idle (dat1 V c) 3 t (idleAt1_3 t (c1_of_mod t h1)) (noFlush1_3 t (c1_of_mod t h1))]
      rw [outsAt1_B V c t h0 h1]
      unfold accB sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (c0_of_mod t h0) (c1_of_mod t h1) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands over is what is kept before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point what is kept gives that back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hoth⟩, Hg⟩
  isplitl [HS0 Hoth]
  · isplitl [HS0]
    · iexists _; iexact HS0
    iexact Hoth
  iexact Hg

end Cert.KernelIdeal.Hand

end
-- ==== Proof.KIMain.lean ====
/-
  The whole program run.  @main is four items: the host lines that compute softplus of the bias parameters, the host
  lines that finish the bias row, the weight-sampler launch, the matrix-product launch.  The contents of the core's
  buffers at each boundary are a fold from the launch memory: a stretch of host lines applies its operations, a launch
  puts each of its windows' arrays at what its write-backs leave and keeps every other buffer.  Each launch is entered
  from every unscoped buffer held at the boundary's contents and left at the next boundary's; the run ends with every
  unscoped buffer at the fold's last value, from which the arguments and the result are read.
-/
import proofs.«109385_j36223754174952_2_alg».proof.Proof.KIRegion0
import proofs.«109385_j36223754174952_2_alg».proof.Proof.KIBody1
import proofs.«109385_j36223754174952_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Entering the first launch: the launch memory after both stretches of host lines, read at a TensorCore reference. -/
abbrev V2r : (c : Dev nD) → (b : Ref sig .tc) → Buf (Elt F) ((c : Thread nD τ).loc b) := fun c b => Gen.V2 m c b
/-- Leaving it: its arrays at what its write-backs leave, every other buffer as entered. -/
def W3 (c : Dev nD) : Valuation τ sig (Elt F) :=
  Pipeline.withArrays spec0 c (Gen.V2 m c) fun w => (dat0 (V2r m) c).arrAt w cfg0.N
theorem W3_arr (c : Dev nD) (w : Fin cfg0.W) :
    W3 m c (Proc.devRef .tc (Pipeline.arrRef spec0 w)) = (dat0 (V2r m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = Gen.V2 m c (Proc.devRef .tc b) := by
  unfold W3; exact Pipeline.withArrays_of_ne spec0 c _ _ b hb
abbrev V3r : (c : Dev nD) → (b : Ref sig .tc) → Buf (Elt F) ((c : Thread nD τ).loc b) := fun c b => W3 m c b
theorem hF0 (c : Dev nD) (w : Fin cfg0.W) : (dat0 (V2r m) c).arrAt w cfg0.N = V3r m c (Pipeline.arrRef spec0 w) :=
  (W3_arr m c w).symm
theorem hrest0 (c : Dev nD) : ∀ b, b ∉ Finset.univ.image (Pipeline.arrRef spec0) → V3r m c b = V2r m c b :=
  fun b hb => W3_of_ne m c b fun w e => hb (Finset.mem_image.mpr ⟨w, Finset.mem_univ _, e⟩)

/-- Leaving the second launch: its arrays at what its write-backs leave, every other buffer as entered. -/
def W4 (c : Dev nD) : Valuation τ sig (Elt F) :=
  Pipeline.withArrays spec1 c (W3 m c) fun w => (dat1 (V3r m) c).arrAt w cfg1.N
theorem W4_arr (c : Dev nD) (w : Fin cfg1.W) :
    W4 m c (Proc.devRef .tc (Pipeline.arrRef spec1 w)) = (dat1 (V3r m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4r : (c : Dev nD) → (b : Ref sig .tc) → Buf (Elt F) ((c : Thread nD τ).loc b) := fun c b => W4 m c b
theorem hF1 (c : Dev nD) (w : Fin cfg1.W) : (dat1 (V3r m) c).arrAt w cfg1.N = V4r m c (Pipeline.arrRef spec1 w) :=
  (W4_arr m c w).symm
theorem hrest1 (c : Dev nD) : ∀ b, b ∉ Finset.univ.image (Pipeline.arrRef spec1) → V4r m c b = V3r m c b :=
  fun b hb => W4_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V2r m) c
  | ⟨1, _⟩ => fun c => dat1 (V3r m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host lines as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The launches as items -/

set_option backward.isDefEq.respectTransparency.types false in
/-- The weight sampler: entered from every unscoped buffer after the host lines, left with its result array filled. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2r m) c).loose
  hwaits := Pipeline.hwaits_of_owed_zero _ _ _ _ L lv 0 fun _ _ => rfl
  pre c := iprop(StableHlo.held (c : Thread nD τ) (Pipeline.ucRefs τ sig) (Gen.V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2r m c) (V3r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product: entered from there, left with the result array filled. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec1 c ∗ ∃ r, prngReg c r) ⊢ (pdats m 1 c).Φ 0 :=
      hin1 (V3r m) c
    iintro ⟨Hp, -, Hr⟩
    iapply h
    isplitl [Hr]; · iexact Hr
    iexact Hp
  hout c := by
    rw [Pipeline.ownSems0_none]
    have h : (pdats m 1 c).Φ (Fin.last _) ⊢ iprop(Pipeline.scopedRest (Ix := Unit) (Name := ℕ) (U := UR sig nD τ) (Lvl := ℕ) (Val := Elt F) spec1 c ∗ ∃ r, prngReg c r) :=
      hout1 (V3r m) c
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3r m c) (V4r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer holds the fold's last value. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KIFrame.lean ====
/-
  The frame, and the result array, read off the run.  No host line and no launch writes an argument: a launch reads it
  through an input window or leaves it alone, so the fold at an argument's buffer walks back to the launch memory.  The
  result array is the matrix-product launch's output window's array at what its write-backs leave.
-/
import proofs.«109385_j36223754174952_2_alg».proof.Proof.KIMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The activations: an input window of the second launch, untouched before it. -/
theorem W4_main_arg0 (c : Dev nD) : W4 m c (Proc.devRef .tc main_arg0) = m ((c : Thread nD τ).loc main_arg0) :=
  calc W4 m c (Proc.devRef .tc main_arg0)
    _ = (dat1 (V3r m) c).arrAt 0 cfg1.N := W4_arr m c 0
    _ = (dat1 (V3r m) c).A 0 := (dat1 (V3r m) c).arrAt_in 0 rfl _
    _ = W3 m c (Proc.devRef .tc main_arg0) := A_eq1 (V3r m) c 0
    _ = Gen.V2 m c (Proc.devRef .tc main_arg0) := W3_of_ne m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl
/-- The three weight parameters: input windows of the first launch. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = (dat0 (V2r m) c).arrAt 0 cfg0.N := W3_arr m c 0
    _ = (dat0 (V2r m) c).A 0 := (dat0 (V2r m) c).arrAt_in 0 rfl _
    _ = Gen.V2 m c (Proc.devRef .tc main_arg1) := A_eq0 (V2r m) c 0
    _ = Gen.V1 m c (Proc.devRef .tc main_arg1) := Gen.V2_of m c main_arg1 (by decide)
    _ = Gen.V0 m c (Proc.devRef .tc main_arg1) := Gen.V1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = (dat0 (V2r m) c).arrAt 1 cfg0.N := W3_arr m c 1
    _ = (dat0 (V2r m) c).A 1 := (dat0 (V2r m) c).arrAt_in 1 rfl _
    _ = Gen.V2 m c (Proc.devRef .tc main_arg2) := A_eq0 (V2r m) c 1
    _ = Gen.V1 m c (Proc.devRef .tc main_arg2) := Gen.V2_of m c main_arg2 (by decide)
    _ = Gen.V0 m c (Proc.devRef .tc main_arg2) := Gen.V1_of m c main_arg2 (by decide)
    _ = m ((c : Thread nD τ).loc main_arg2) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = (dat0 (V2r m) c).arrAt 2 cfg0.N := W3_arr m c 2
    _ = (dat0 (V2r m) c).A 2 := (dat0 (V2r m) c).arrAt_in 2 rfl _
    _ = Gen.V2 m c (Proc.devRef .tc main_arg5) := A_eq0 (V2r m) c 2
    _ = Gen.V1 m c (Proc.devRef .tc main_arg5) := Gen.V2_of m c main_arg5 (by decide)
    _ = Gen.V0 m c (Proc.devRef .tc main_arg5) := Gen.V1_of m c main_arg5 (by decide)
    _ = m ((c : Thread nD τ).loc main_arg5) := rfl
/-- The three bias parameters: read by host lines only. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = Gen.V2 m c (Proc.devRef .tc main_arg3) := W3_of_ne m c main_arg3 (by decide)
    _ = Gen.V1 m c (Proc.devRef .tc main_arg3) := Gen.V2_of m c main_arg3 (by decide)
    _ = Gen.V0 m c (Proc.devRef .tc main_arg3) := Gen.V1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = Gen.V2 m c (Proc.devRef .tc main_arg4) := W3_of_ne m c main_arg4 (by decide)
    _ = Gen.V1 m c (Proc.devRef .tc main_arg4) := Gen.V2_of m c main_arg4 (by decide)
    _ = Gen.V0 m c (Proc.devRef .tc main_arg4) := Gen.V1_of m c main_arg4 (by decide)
    _ = m ((c : Thread nD τ).loc main_arg4) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = Gen.V2 m c (Proc.devRef .tc main_arg6) := W3_of_ne m c main_arg6 (by decide)
    _ = Gen.V1 m c (Proc.devRef .tc main_arg6) := Gen.V2_of m c main_arg6 (by decide)
    _ = Gen.V0 m c (Proc.devRef .tc main_arg6) := Gen.V1_of m c main_arg6 (by decide)
    _ = m ((c : Thread nD τ).loc main_arg6) := rfl

/-- Every weakly fair execution of @main terminates, nothing faulting, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

/-- The same run with the result array named: what the second launch's write-backs leave in it. -/
theorem run_result (ρ : Dev nD → PrngReg) : θ_run defs (onTc (τ := τ) (main (F := F))) ⟨m, fun _ => 0, ρ⟩ (fun r => ∀ c : Dev nD,
      r.2.mem ((c.tc : Thread nD τ).loc main_v5) = (dat1 (V3r m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v5 (by decide))).trans (W4_arr m c 3),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

end Cert.KernelIdeal.Hand

end
-- ==== Proof.KIVal1.lean ====
/-
  What each case of the matrix-product kernel leaves, as values.  The pieces a case's run found are the body's stores;
  read back, the accumulator holds the payload of its last store: the point's product added to what the accumulator
  held (to the zero block where k = 0), and, where k = 15, the output window's buffer holds that sum plus the bias row.
-/
import proofs.«109385_j36223754174952_2_alg».proof.Proof.KIRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- 0 < k < 15: the accumulator ends at the point's product added to what it held. -/
theorem sout1_B_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_unit_zero hz2]
  simp only [View.readAt_eq_ld, harg3.read_unread, harg4.read_unread, harg7.read_unread,
    View.ld_unit_zero (S := S1024x256) hz2, View.ld_unit_zero (S := S2048x256) hz2, View.ld_unit_zero (S := S1024x2048) hz2]

/-- k = 0: the accumulator ends at the point's product added to the zero block. -/
theorem sout1_A_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x2048) hz2]
  simp only [View.readAt_eq_ld, harg3.read_unread, harg4.read_unread, View.readCov_unit_zero (S := S1024x2048) _ hz2,
    View.ld_unit_zero (S := S1024x256) hz2, View.ld_unit_zero (S := S2048x256) hz2, View.ld_unit_zero (S := S1024x2048) hz2]

/-- k = 15: the accumulator likewise, -/
theorem sout1_C_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg7.read_unread,
    View.ld_unit_zero (S := S1024x256) hz2, View.ld_unit_zero (S := S2048x256) hz2, View.ld_unit_zero (S := S1024x2048) hz2]

/-- and the output window's buffer ends at that sum plus the bias row. -/
theorem out1_C_3_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.readCov_unit_zero (S := S1024x2048) _ hz2,
    View.ld_unit_zero (S := S1024x256) hz2, View.ld_unit_zero (S := S2048x256) hz2, View.ld_unit_zero (S := S1024x2048) hz2,
    View.ld_unit_zero (S := S1x2048) hz2]

end Cert.KernelIdeal.Hand

end
-- ==== Proof.KIVal2.lean ====
/-
  The accumulation in closed form.  After position n the accumulator holds the point's product added to the zero block
  where k = 0 and to the previous position's accumulator elsewhere; this recursion over the payloads is `acc1`, and what
  the launch's proof data record (`outsAt1`) is it, by induction on the position.  Where k = 15 the output window's
  buffer holds that accumulator plus the bias row.  The weight sampler's one store, read back, is its payload of the
  three input blocks.
-/
import proofs.«109385_j36223754174952_2_alg».proof.Proof.KIVal1
import proofs.«109385_j36223754174952_2_alg».proof.Proof.KIRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The recorded pair, by cases -/

theorem snd_A (c : Dev nD) (t : Fin cfg1.N) (h0 : t.val % 16 = 0) : (outsAt1 V c t.val t.isLt).2 = accA V c t h0 := by
  rw [outsAt1_A V c t h0]
theorem snd_B (c : Dev nD) (t : Fin cfg1.N) (h0 : ¬t.val % 16 = 0) (h1 : ¬t.val % 16 = 15) :
    (outsAt1 V c t.val t.isLt).2 = accB V c t h0 h1 (outsAt1 V c (t.val - 1) (Nat.lt_of_le_of_lt (Nat.sub_le _ _) t.isLt)).2 := by
  rw [outsAt1_B V c t h0 h1]
theorem snd_C (c : Dev nD) (t : Fin cfg1.N) (h0 : ¬t.val % 16 = 0) (h1 : t.val % 16 = 15) :
    (outsAt1 V c t.val t.isLt).2 = accC V c t h0 h1 (outsAt1 V c (t.val - 1) (Nat.lt_of_le_of_lt (Nat.sub_le _ _) t.isLt)).2 := by
  rw [outsAt1_C V c t h0 h1]
theorem fst_C (c : Dev nD) (t : Fin cfg1.N) (h0 : ¬t.val % 16 = 0) (h1 : t.val % 16 = 15) :
    (outsAt1 V c t.val t.isLt).1 = outC V c t h0 h1 (outsAt1 V c (t.val - 1) (Nat.lt_of_le_of_lt (Nat.sub_le _ _) t.isLt)).2 := by
  rw [outsAt1_C V c t h0 h1]

/-! ## Each case as a payload of the point's blocks -/

theorem accA_eq (c : Dev nD) (t : Fin cfg1.N) (h0 : t.val % 16 = 0) :
    accA V c t h0 = k1_pay2 (iblk1 V c 0 t) (iblk1 V c 1 t) (k1_pay1 (F := F)) :=
  sout1_A_eq c (grid1.coords t) (ms1_0 t) (hs1_0 t) (ms1_1 t) (hs1_1 t) (ms1_2 t) (hs1_2 t) (ms1_3 t) (hs1_3 t) scM1_0 (Memref.isWhole_whole _) ((hcond1_0 t).mpr h0) (c1_of_mod0 t h0) (iblk1 V c 0 t) (iblk1 V c 1 t) (iblk1 V c 2 t)
theorem accB_eq (c : Dev nD) (t : Fin cfg1.N) (h0 : ¬t.val % 16 = 0) (h1 : ¬t.val % 16 = 15) (xs : Vec F S1024x2048 .f32) :
    accB V c t h0 h1 xs = k1_pay2 (iblk1 V c 0 t) (iblk1 V c 1 t) xs :=
  sout1_B_eq c (grid1.coords t) (ms1_0 t) (hs1_0 t) (ms1_1 t) (hs1_1 t) (ms1_2 t) (hs1_2 t) (ms1_3 t) (hs1_3 t) scM1_0 (Memref.isWhole_whole _) (c0_of_mod t h0) (c1_of_mod t h1) (iblk1 V c 0 t) (iblk1 V c 1 t) (iblk1 V c 2 t) xs
theorem accC_eq (c : Dev nD) (t : Fin cfg1.N) (h0 : ¬t.val % 16 = 0) (h1 : t.val % 16 = 15) (xs : Vec F S1024x2048 .f32) :
    accC V c t h0 h1 xs = k1_pay2 (iblk1 V c 0 t) (iblk1 V c 1 t) xs :=
  sout1_C_eq c (grid1.coords t) (ms1_0 t) (hs1_0 t) (ms1_1 t) (hs1_1 t) (ms1_2 t) (hs1_2 t) (ms1_3 t) (hs1_3 t) scM1_0 (Memref.isWhole_whole _) (c0_of_mod t h0) ((hcond1_1 t).mpr h1) (iblk1 V c 0 t) (iblk1 V c 1 t) (iblk1 V c 2 t) xs
theorem outC_eq (c : Dev nD) (t : Fin cfg1.N) (h0 : ¬t.val % 16 = 0) (h1 : t.val % 16 = 15) (xs : Vec F S1024x2048 .f32) :
    outC V c t h0 h1 xs = k1_pay3 (k1_pay2 (iblk1 V c 0 t) (iblk1 V c 1 t) xs) (iblk1 V c 2 t) :=
  out1_C_3_eq c (grid1.coords t) (ms1_0 t) (hs1_0 t) (ms1_1 t) (hs1_1 t) (ms1_2 t) (hs1_2 t) (ms1_3 t) (hs1_3 t) scM1_0 (Memref.isWhole_whole _) (c0_of_mod t h0) ((hcond1_1 t).mpr h1) (iblk1 V c 0 t) (iblk1 V c 1 t) (iblk1 V c 2 t) xs

/-! ## The recursion -/

/-- The accumulator after position n. -/
def acc1 (c : Dev nD) : (n : ℕ) → n < cfg1.N → Vec F S1024x2048 .f32
  | 0, h => k1_pay2 (iblk1 V c 0 ⟨0, h⟩) (iblk1 V c 1 ⟨0, h⟩) (k1_pay1 (F := F))
  | n + 1, h =>
    if (n + 1) % 16 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (iblk1 V c 0 ⟨0, h⟩) (iblk1 V c 1 ⟨0, h⟩) (k1_pay1 (F := F)) := rfl
theorem acc1_succ (c : Dev nD) (n : ℕ) (h : n + 1 < cfg1.N) :
    acc1 V c (n + 1) h = if (n + 1) % 16 = 0 then k1_pay2 (iblk1 V c 0 ⟨n + 1, h⟩) (iblk1 V c 1 ⟨n + 1, h⟩) (k1_pay1 (F := F))
      else k1_pay2 (iblk1 V c 0 ⟨n + 1, h⟩) (iblk1 V c 1 ⟨n + 1, h⟩) (acc1 V c n (Nat.lt_of_succ_lt h)) := rfl

/-- What the proof data record for the accumulator is the recursion. -/
theorem outsAt1_snd (c : Dev nD) : ∀ (n : ℕ) (h : n < cfg1.N), (outsAt1 V c n h).2 = acc1 V c n h
  | 0, h => (snd_A V c ⟨0, h⟩ (Nat.zero_mod _)).trans (accA_eq V c ⟨0, h⟩ (Nat.zero_mod _))
  | n + 1, h => by
    rw [acc1_succ]
    by_cases h0 : (n + 1) % 16 = 0
    · rw [if_pos h0]
      exact (snd_A V c ⟨n + 1, h⟩ h0).trans (accA_eq V c ⟨n + 1, h⟩ h0)
    · rw [if_neg h0, ← outsAt1_snd c n (Nat.lt_of_succ_lt h)]
      by_cases h1 : (n + 1) % 16 = 15
      · exact (snd_C V c ⟨n + 1, h⟩ h0 h1).trans (accC_eq V c ⟨n + 1, h⟩ h0 h1 _)
      · exact (snd_B V c ⟨n + 1, h⟩ h0 h1).trans (accB_eq V c ⟨n + 1, h⟩ h0 h1 _)

/-- Where k = 15 the output window's buffer ends at the accumulator plus the bias row. -/
theorem outsAt1_fst (c : Dev nD) (t : Fin cfg1.N) (h1 : t.val % 16 = 15) :
    (outsAt1 V c t.val t.isLt).1 = k1_pay3 (acc1 V c t.val t.isLt) (iblk1 V c 2 t) := by
  have h0 : ¬t.val % 16 = 0 := by omega
  rw [← outsAt1_snd V c t.val t.isLt, snd_C V c t h0 h1, accC_eq, fst_C V c t h0 h1, outC_eq]

/-- The weight sampler's store, read back, is its payload of the three input blocks. -/
theorem out0_3_eq (x0 x1 x2 : Vec F S128x4096 .f32) : out0_3 x0 x1 x2 = k0_pay1 x0 x1 x2 := by
  unfold out0_3
  rw [View.canon_unit_zero hz2]
  simp only [View.ld_unit_zero (S := S128x4096) hz2]

end Cert.KernelIdeal.Hand

end
-- ==== Proof.Spec.lean ====
/-
  The function both programs compute, over the extended reals.

  A Bayesian linear layer: every weight and every bias entry is sampled as  mu + softplus(rho) * eps,  and the
  layer's output at row b, column o is  (sum over i of x(b,i) * w(o,i)) + bias(o).  softplus is spelt the way both
  programs spell it once the dead not-a-number guard is dropped:  max(r,0) + log(1 + exp(-|r|)),  with |r| = max r (-r).
  Nothing here mentions a program: the two sides are each shown equal to `out`.
-/
import Idealize.ShloMosaic.PureOps.Ideal
import Idealize.ShloMosaic.Lib.ValueIdx

noncomputable section

namespace Cert.Spec

open Idealize.ShloMosaic Idealize.ShloMosaic.ValueIdx

/-- The shapes of the arguments: the activations [8192, 4096], a weight-sized matrix [4096, 4096], a bias-sized vector [4096]. -/
abbrev SX : Shape := ⟨2, ![8192, 4096]⟩
abbrev SW : Shape := ⟨2, ![4096, 4096]⟩
abbrev SB : Shape := ⟨1, ![4096]⟩

/-- softplus on the extended reals: max(r, 0) + log(1 + exp(-|r|)). -/
def sp (r : EReal) : EReal := max r 0 + Ideal.log1p (Ideal.exp (-(max r (-r))))

/-- One sampled parameter: mu + softplus(rho) * eps. -/
def smp (mu rho eps : EReal) : EReal := mu + sp rho * eps

/-- The sampled weight at output row o, input column i. -/
def wgt (wmu wrho weps : SW.Idx → EReal) (o i : Fin 4096) : EReal :=
  smp (wmu (ix2 o i)) (wrho (ix2 o i)) (weps (ix2 o i))

/-- The sampled bias at output column o. -/
def bia (bmu brho beps : SB.Idx → EReal) (o : Fin 4096) : EReal :=
  smp (bmu (ix1 o)) (brho (ix1 o)) (beps (ix1 o))

/-- The layer's output at row b, column o: the row of x against the row of the sampled weight, plus the sampled bias. -/
def outAt (x : SX.Idx → EReal) (wmu wrho : SW.Idx → EReal) (bmu brho : SB.Idx → EReal) (weps : SW.Idx → EReal)
    (beps : SB.Idx → EReal) (b : Fin 8192) (o : Fin 4096) : EReal :=
  (∑ i : Fin 4096, x (ix2 b i) * wgt wmu wrho weps o i) + bia bmu brho beps o

/-- The layer's output as an array, in the arguments' order (x, weight_mu, weight_rho, bias_mu, bias_rho, weight_eps, bias_eps). -/
def out (x : SX.Idx → EReal) (wmu wrho : SW.Idx → EReal) (bmu brho : SB.Idx → EReal) (weps : SW.Idx → EReal)
    (beps : SB.Idx → EReal) : SX.Idx → EReal :=
  fun j => outAt x wmu wrho bmu brho weps beps (j 0) (j 1)

end Cert.Spec

end
-- ==== Proof.LibDotRows.lean ====
/-
  A general lemma about a matrix product that contracts the LAST axis of both rank-2 operands (rows against rows, `A · Bᵀ`),
  for ANY dimension record with those contracting axes: into a zero accumulator, at the extended reals, its entry `(p, a)`
  is the plain sum over the shared axis of `l (p, k) · r (a, k)`. The two facts `hl0`, `hr0` say that the kept coordinate
  of each operand's index is the result's row, respectively column; they hold of every such record and are decided at a
  literal one.
-/
import Idealize.ShloMosaic.Lib.Pipeline.Value
import Idealize.ShloMosaic.Lib.ValueIdx
import Idealize.ShloMosaic.PureOps.Ideal.Laws

noncomputable section

namespace Cert.LibDotRows

open Idealize.ShloMosaic Idealize.ShloMosaic.ValueIdx

variable {φ₁ φ₂ : FTy}

/-- A product of `[n, K]` by `[A, K]` contracting both second axes, into the zero accumulator, read at `(p, a)`: the sum
    over the contracted coordinate `k` of `l (p, k) · r (a, k)`. -/
theorem matmul_zero_rows_apply {n K A : ℕ} (D : DotDims ⟨2, ![n, K]⟩ ⟨2, ![A, K]⟩ ⟨2, ![n, A]⟩) (prec : Option ContractPrecision)
    (hlc : D.lhsContracting = [1]) (hrc : D.rhsContracting = [1])
    (hr : D.contr.rank = 1) (hs : D.contr.size ⟨0, by omega⟩ = K)
    (hl0 : ∀ j k, (D.lhsIdx j k 0).val = (j 0).val) (hr0 : ∀ j k, (D.rhsIdx j k 0).val = (j 1).val)
    (l : FVec Ideal ⟨2, ![n, K]⟩ φ₁) (r : FVec Ideal ⟨2, ![A, K]⟩ φ₂) (p : Fin n) (a : Fin A) :
    matmul D prec l r (constant ⟨2, ![n, A]⟩ .f32 0x00000000#32) (ix2 p a) = ∑ k : Fin K, l (ix2 p k) * r (ix2 a k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p a) ((contrEquiv1 D K hr hs).symm k) = ix2 p k := funext fun c => Fin.ext (by
    match c with
    | ⟨0, _⟩ => exact hl0 _ _
    | ⟨1, _⟩ => exact (D.lhsIdx_val_of_single hlc _ _).trans hk)
  have er : D.rhsIdx (ix2 p a) ((contrEquiv1 D K hr hs).symm k) = ix2 a k := funext fun c => Fin.ext (by
    match c with
    | ⟨0, _⟩ => exact hr0 _ _
    | ⟨1, _⟩ => exact (D.rhsIdx_val_of_single hrc _ _).trans hk)
  rw [el, er]

end Cert.LibDotRows

end
-- ==== Proof.KPay.lean ====
/-
  The values the two kernels store, read one element at a time over the extended reals.

  The first kernel stores the sampled weight  mu + softplus(rho) * eps  of the three blocks it loads. The second
  starts its accumulator at zero, adds at each step of the contracted grid axis the block of activations against the
  block of sampled weights (rows against rows, the sum over the 256 shared columns), and at the last step stores the
  accumulator plus the bias row broadcast along the rows. Format changes and same-shape casts are the identity here.
-/
import proofs.«109385_j36223754174952_2_alg».proof.Proof.Gen.KernelIdeal.Skeleton
import proofs.«109385_j36223754174952_2_alg».proof.Proof.Spec
import proofs.«109385_j36223754174952_2_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

namespace Cert.KPay

open Idealize.ShloMosaic Idealize.ShloMosaic.ValueIdx
open Cert.KernelIdeal Cert.KernelIdeal.Gen

/-- The accumulator's first value: the zero constant, whose same-shape cast is itself. -/
theorem pay1_at (p : Fin 1024) (q : Fin 2048) : (k1_pay1 (F := Ideal)) (ix2 p q) = (0 : EReal) := by
  unfold k1_pay1
  rw [shapeCast_self]
  show Ideal.ofBits .f32 0x00000000#32 = 0
  exact Ideal.ofBits_zero_f32

/-- The last grid step's result: the accumulator plus the bias row broadcast along the rows. -/
theorem pay3_at (a : Vec Ideal S1024x2048 .f32) (b : Vec Ideal S1x2048 .f32) (p : Fin 1024) (q : Fin 2048) :
    k1_pay3 (F := Ideal) a b (ix2 p q) = a (ix2 p q) + b (ix2 (0 : Fin 1) q) := by
  unfold k1_pay3
  rw [shapeCast_self]
  show a (ix2 p q) + broadcastTo S1024x2048 b broadcasts_S1x2048_S1024x2048 (ix2 p q) = _
  rw [broadcastTo_1b_ab_apply]

/-- The kernel's softplus at one extended real. Its guard compares `r - 0` with itself for inequality, which never
    holds on a linear order, so the select takes its last operand; `r - 0 = r` and `0 - |r| = -|r|`. What is left is
    `max r 0 + log1p (exp (-(max r (-r))))`. -/
theorem softplus_at (r : EReal) :
    Scalar.select (Ideal.cmp .one (r - 0) (r - 0)) (r + 0)
      (max r 0 + Ideal.log1p (Ideal.exp (0 - max (r - 0) (-(r - 0))))) = Cert.Spec.sp r := by
  have h : Ideal.cmp .one (r - 0) (r - 0) = 0#1 := by simp [Ideal.cmp]
  rw [h, select_zero, sub_zero, zero_sub]
  rfl

/-- The sampled weight the first kernel stores: `mu + softplus(rho) * eps`, element by element; the change of float
    format is the identity on extended reals. -/
theorem pay0_fvec_at (v0 v1 v16 : FVec Ideal S128x4096 .f32) (p : Fin 128) (q : Fin 4096) :
    k0_pay1 (F := Ideal) v0 v1 v16 (ix2 p q) = Cert.Spec.smp (v0 (ix2 p q)) (v1 (ix2 p q)) (v16 (ix2 p q)) := by
  show FloatOps.addf (v0 (ix2 p q)) (FloatOps.mulf
      (Scalar.select
        (FloatOps.cmpf .one (FloatOps.subf (v1 (ix2 p q)) (Scalar.ofBits .f32 0x00000000#32))
          (FloatOps.subf (v1 (ix2 p q)) (Scalar.ofBits .f32 0x00000000#32)))
        (FloatOps.addf (v1 (ix2 p q)) (Scalar.ofBits .f32 0x00000000#32))
        (FloatOps.addf (FloatOps.maximumf (v1 (ix2 p q)) (Scalar.ofBits .f32 0x00000000#32))
          (FloatOps.log1p (FloatOps.exp (FloatOps.subf (Scalar.ofBits .f32 0x00000000#32)
            (FloatOps.absf (FloatOps.subf (v1 (ix2 p q)) (Scalar.ofBits .f32 0x00000000#32))))))))
      (v16 (ix2 p q))) = _
  have hs : Scalar.ofBits (F := Ideal) .f32 0x00000000#32 = (0 : EReal) := Ideal.ofBits_zero_f32
  rw [hs]
  simp only [Ideal.subf_def, Ideal.addf_def, Ideal.mulf_def, Ideal.maximumf_def, Ideal.log1p_def, Ideal.exp_def,
    Ideal.absf_def, Ideal.cmpf_def]
  rw [softplus_at]
  rfl

/-- The same, over the element-typed vectors the body's loads have. -/
theorem pay0_at (v0 v1 v16 : Vec Ideal S128x4096 .f32) (p : Fin 128) (q : Fin 4096) :
    k0_pay1 (F := Ideal) v0 v1 v16 (ix2 p q) = Cert.Spec.smp (v0 (ix2 p q)) (v1 (ix2 p q)) (v16 (ix2 p q)) :=
  pay0_fvec_at v0 v1 v16 p q

/-- The contraction record keeps the left operand's row as the result's row … -/
theorem dot_lhs_row (j : S1024x2048.Idx) (k : dot_S1024x256_S2048x256_S1024x2048_1_1_0_0_n_n.contr.Idx) :
    (dot_S1024x256_S2048x256_S1024x2048_1_1_0_0_n_n.lhsIdx j k 0).val = (j 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl

/-- … and the right operand's row as the result's column. -/
theorem dot_rhs_row (j : S1024x2048.Idx) (k : dot_S1024x256_S2048x256_S1024x2048_1_1_0_0_n_n.contr.Idx) :
    (dot_S1024x256_S2048x256_S1024x2048_1_1_0_0_n_n.rhsIdx j k 0).val = (j 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl

/-- One grid step's accumulation: the accumulator plus the block of activations against the block of sampled weights,
    rows against rows; the format change and the same-shape casts are the identity. -/
theorem pay2_fvec_at (x0 : FVec Ideal S1024x256 .f32) (x1 : FVec Ideal S2048x256 .bf16) (xs : FVec Ideal S1024x2048 .f32)
    (p : Fin 1024) (q : Fin 2048) :
    k1_pay2 (F := Ideal) x0 x1 xs (ix2 p q) = xs (ix2 p q) + ∑ d : Fin 256, x0 (ix2 p d) * x1 (ix2 q d) := by
  unfold k1_pay2
  rw [shapeCast_self, shapeCast_self]
  show xs (ix2 p q) + matmul dot_S1024x256_S2048x256_S1024x2048_1_1_0_0_n_n none
      (truncf .bf16 x0 bitsLt_bf16_f32) x1 (constant S1024x2048 .f32 0x00000000#32) (ix2 p q) = _
  rw [Cert.LibDotRows.matmul_zero_rows_apply dot_S1024x256_S2048x256_S1024x2048_1_1_0_0_n_n none rfl rfl rfl rfl
    dot_lhs_row dot_rhs_row]
  rfl

/-- The same, over the element-typed vectors the body's loads have. -/
theorem pay2_at (x0 : Vec Ideal S1024x256 .f32) (x1 : Vec Ideal S2048x256 .bf16) (xs : Vec Ideal S1024x2048 .f32)
    (p : Fin 1024) (q : Fin 2048) :
    k1_pay2 (F := Ideal) x0 x1 xs (ix2 p q) = xs (ix2 p q) + ∑ d : Fin 256, x0 (ix2 p d) * x1 (ix2 q d) :=
  pay2_fvec_at x0 x1 xs p q

end Cert.KPay

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.KSum.lean ====
/-
  A sum of 4096 consecutive terms regrouped into 16 consecutive blocks of 256: term `d` of block `k` sits at position
  `256 * k + d`. Only commutativity and associativity of `+` are used, so the law holds in every additive commutative
  monoid, the extended reals included.
-/
import proofs.«109385_j36223754174952_2_alg».proof.Proof.LibBlockSum
import Mathlib.Algebra.BigOperators.Fin
import Mathlib.Data.EReal.Inv

namespace Cert.KSum

/-- The sum over sixteen blocks of each block's 256 terms is the sum of all 4096 terms. -/
theorem sum_blocks16 {M : Type*} [AddCommMonoid M] (g : ℕ → M) :
    ∑ k ∈ Finset.range 16, ∑ d : Fin 256, g (256 * k + d.val) = ∑ i : Fin 4096, g i.val := by
  rw [Finset.sum_range]
  show _ = ∑ i : Fin (16 * 256), g i.val
  rw [Cert.BlockSum.sum_blocks 16 256 fun i : Fin (16 * 256) => g i.val]
  refine Finset.sum_congr rfl fun j _ => Finset.sum_congr rfl fun q _ => ?_
  rw [Cert.BlockSum.finProdFinEquiv_val, Nat.add_comm]

end Cert.KSum
-- ==== Proof.KIFinal1.lean ====
/-
  The matrix-product launch's result array, as one function of the buffers it is entered with, over the extended reals.
  A window's block at point t = (i, j, k) sits at rows 1024 i .. of the activations (columns 256 k ..), rows 2048 j .. of
  the weight (columns 256 k ..), columns 2048 j .. of the bias row.  By induction on the position the accumulator at
  (p, q) is the sum, over the column blocks 0 .. k, of the 256 products of each; at k = 15 that is the whole row sum
  regrouped into 16 blocks, and what is written back is it plus the bias entry.  The 16 write-back points' blocks tile
  the array: the point covering (r, o) is 32 (r / 1024) + 16 (o / 2048) + 15.
-/
import proofs.«109385_j36223754174952_2_alg».proof.Proof.KIVal2
import proofs.«109385_j36223754174952_2_alg».proof.Proof.KPay
import proofs.«109385_j36223754174952_2_alg».proof.Proof.KSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The three arrays the launch reads, as total functions of natural coordinates -/

/-- The activations at row r, column k (0 outside the array). -/
def Xn (c : Dev nD) (r k : ℕ) : EReal :=
  if h : r < 8192 ∧ k < 4096 then (V c main_arg0 : S8192x4096.Idx → EReal) (ix2 ⟨r, h.1⟩ ⟨k, h.2⟩) else 0
/-- The sampled weight at row o, column k. -/
def Wn (c : Dev nD) (o k : ℕ) : EReal :=
  if h : o < 4096 ∧ k < 4096 then (V c main_v4 : S4096x4096.Idx → EReal) (ix2 ⟨o, h.1⟩ ⟨k, h.2⟩) else 0
/-- The bias row at column o. -/
def Bn (c : Dev nD) (o : ℕ) : EReal :=
  if h : o < 4096 then (V c main_v3 : S1x4096.Idx → EReal) (ix2 (0 : Fin 1) ⟨o, h⟩) else 0

/-- The launch's result: row r of the activations against row o of the weight, plus the bias at o. -/
def G1 (c : Dev nD) : S8192x4096.Idx → EReal :=
  fun i => (∑ k : Fin 4096, Xn V c (i 0).val k.val * Wn V c (i 1).val k.val) + Bn V c (i 1).val

/-! ## Where the blocks sit -/

/-- The printed index maps in closed form, decided over the 256 points. -/
theorem idx1 : ∀ t : Fin cfg1.N, win1_0.index t (0 : Fin 2) = t.val / 32 ∧ win1_0.index t (1 : Fin 2) = t.val % 16
    ∧ win1_1.index t (0 : Fin 2) = (t.val / 16) % 2 ∧ win1_1.index t (1 : Fin 2) = t.val % 16
    ∧ win1_2.index t (0 : Fin 2) = 0 ∧ win1_2.index t (1 : Fin 2) = (t.val / 16) % 2
    ∧ win1_3.index t (0 : Fin 2) = t.val / 32 ∧ win1_3.index t (1 : Fin 2) = (t.val / 16) % 2 :=
  (by decide +kernel : ∀ t : Fin grid1.N, _)

/-- The three input blocks at point t, at their literal types. -/
abbrev xb (c : Dev nD) (t : Fin cfg1.N) : Vec Ideal S1024x256 .f32 := iblk1 V c 0 t
abbrev wb (c : Dev nD) (t : Fin cfg1.N) : Vec Ideal S2048x256 .bf16 := iblk1 V c 1 t
abbrev bb (c : Dev nD) (t : Fin cfg1.N) : Vec Ideal S1x2048 .f32 := iblk1 V c 2 t

theorem iblk1_0_at (c : Dev nD) (t : Fin cfg1.N) (p : Fin 1024) (d : Fin 256) :
    xb V c t (ix2 p d) = Xn V c (1024 * (t.val / 32) + p.val) (256 * (t.val % 16) + d.val) := by
  obtain ⟨e0, e1, -⟩ := idx1 t
  have hN : t.val < 256 := lt_of_lt_of_eq t.isLt (show cfg1.N = 256 from N_1)
  have hp := p.isLt; have hd := d.isLt
  unfold xb iblk1 Xn
  rw [View.read_apply, dif_pos ⟨by omega, by omega⟩]
  show V c main_arg0 _ = V c main_arg0 _
  congr 1
  funext a; apply Fin.ext
  match a with
  | ⟨0, _⟩ => show win1_0.index t (0 : Fin 2) * 1024 + 1 * p.val = 1024 * (t.val / 32) + p.val; rw [e0]; omega
  | ⟨1, _⟩ => show win1_0.index t (1 : Fin 2) * 256 + 1 * d.val = 256 * (t.val % 16) + d.val; rw [e1]; omega

theorem iblk1_1_at (c : Dev nD) (t : Fin cfg1.N) (q : Fin 2048) (d : Fin 256) :
    wb V c t (ix2 q d) = Wn V c (2048 * ((t.val / 16) % 2) + q.val) (256 * (t.val % 16) + d.val) := by
  obtain ⟨-, -, e0, e1, -⟩ := idx1 t
  have hN : t.val < 256 := lt_of_lt_of_eq t.isLt (show cfg1.N = 256 from N_1)
  have hq := q.isLt; have hd := d.isLt
  unfold wb iblk1 Wn
  rw [View.read_apply, dif_pos ⟨by omega, by omega⟩]
  show V c main_v4 _ = V c main_v4 _
  congr 1
  funext a; apply Fin.ext
  match a with
  | ⟨0, _⟩ => show win1_1.index t (0 : Fin 2) * 2048 + 1 * q.val = 2048 * ((t.val / 16) % 2) + q.val; rw [e0]; omega
  | ⟨1, _⟩ => show win1_1.index t (1 : Fin 2) * 256 + 1 * d.val = 256 * (t.val % 16) + d.val; rw [e1]; omega

theorem iblk1_2_at (c : Dev nD) (t : Fin cfg1.N) (q : Fin 2048) :
    bb V c t (ix2 (0 : Fin 1) q) = Bn V c (2048 * ((t.val / 16) % 2) + q.val) := by
  obtain ⟨-, -, -, -, e0, e1, -⟩ := idx1 t
  have hq := q.isLt
  unfold bb iblk1 Bn
  rw [View.read_apply, dif_pos (by omega)]
  show V c main_v3 _ = V c main_v3 _
  congr 1
  funext a; apply Fin.ext
  match a with
  | ⟨0, _⟩ => show win1_2.index t (0 : Fin 2) * 1 + 1 * 0 = 0; rw [e0]
  | ⟨1, _⟩ => show win1_2.index t (1 : Fin 2) * 2048 + 1 * q.val = 2048 * ((t.val / 16) % 2) + q.val; rw [e1]; omega

/-! ## The accumulator's value -/

/-- One column block's contribution at (p, q) of the tile of position n. -/
def blockTerm (c : Dev nD) (n : ℕ) (p : Fin 1024) (q : Fin 2048) (k : ℕ) : EReal :=
  ∑ d : Fin 256, Xn V c (1024 * (n / 32) + p.val) (256 * k + d.val) * Wn V c (2048 * ((n / 16) % 2) + q.val) (256 * k + d.val)

/-- The point's product at (p, q) is its column block's contribution. -/
theorem prod_at (c : Dev nD) (t : Fin cfg1.N) (p : Fin 1024) (q : Fin 2048) :
    (∑ d : Fin 256, xb V c t (ix2 p d) * wb V c t (ix2 q d))
      = blockTerm V c t.val p q (t.val % 16) := by
  unfold blockTerm
  refine Finset.sum_congr rfl fun d _ => ?_
  rw [iblk1_0_at, iblk1_1_at]

/-- After position n the accumulator at (p, q) is the sum of the column blocks 0 .. n mod 16 of its tile. -/
theorem acc1_at (c : Dev nD) : ∀ (n : ℕ) (h : n < cfg1.N) (p : Fin 1024) (q : Fin 2048),
    (acc1 V c n h : S1024x2048.Idx → EReal) (ix2 p q) = ∑ k ∈ Finset.range (n % 16 + 1), blockTerm V c n p q k
  | 0, h, p, q => by
    rw [acc1_zero]
    refine (Cert.KPay.pay2_at (xb V c ⟨0, h⟩) (wb V c ⟨0, h⟩) (k1_pay1 (F := Ideal)) p q).trans ?_
    rw [Cert.KPay.pay1_at, zero_add, prod_at V c ⟨0, h⟩ p q]
    simp
  | n + 1, h, p, q => by
    have hN : n + 1 < 256 := lt_of_lt_of_eq h (show cfg1.N = 256 from N_1)
    rw [acc1_succ]
    by_cases h0 : (n + 1) % 16 = 0
    · rw [if_pos h0]
      refine (Cert.KPay.pay2_at (xb V c ⟨n + 1, h⟩) (wb V c ⟨n + 1, h⟩) (k1_pay1 (F := Ideal)) p q).trans ?_
      rw [Cert.KPay.pay1_at, zero_add, prod_at V c ⟨n + 1, h⟩ p q]
      show blockTerm V c (n + 1) p q ((n + 1) % 16) = _
      rw [h0]; simp
    · rw [if_neg h0]
      refine (Cert.KPay.pay2_at (xb V c ⟨n + 1, h⟩) (wb V c ⟨n + 1, h⟩) (acc1 V c n (Nat.lt_of_succ_lt h)) p q).trans ?_
      rw [acc1_at c n (Nat.lt_of_succ_lt h) p q, prod_at V c ⟨n + 1, h⟩ p q]
      show (∑ k ∈ Finset.range (n % 16 + 1), blockTerm V c n p q k) + blockTerm V c (n + 1) p q ((n + 1) % 16) = _
      have e3 : (n + 1) % 16 = n % 16 + 1 := by omega
      have eb : ∀ k, blockTerm V c n p q k = blockTerm V c (n + 1) p q k := fun k => by
        unfold blockTerm
        rw [show (n + 1) / 32 = n / 32 from by omega, show ((n + 1) / 16) % 2 = (n / 16) % 2 from by omega]
      rw [e3, Finset.sum_range_succ (fun k => blockTerm V c (n + 1) p q k) (n % 16 + 1)]
      congr 1
      exact Finset.sum_congr rfl fun k _ => eb k

/-! ## What a write-back point stores, and the cover -/

/-- Where output block (p, q) of point t sits in the result array. -/
theorem emb3_at (t : Fin cfg1.N) (p : Fin 1024) (q : Fin 2048) (a : Fin 2) :
    ((((cfg1.win 3).blk t).view.emb (ix2 p q : S1024x2048.Idx)) a).val
      = match a with | ⟨0, _⟩ => 1024 * (t.val / 32) + p.val | ⟨1, _⟩ => 2048 * ((t.val / 16) % 2) + q.val := by
  obtain ⟨-, -, -, -, -, -, e0, e1⟩ := idx1 t
  match a with
  | ⟨0, _⟩ => show win1_3.index t (0 : Fin 2) * 1024 + 1 * p.val = 1024 * (t.val / 32) + p.val; rw [e0]; omega
  | ⟨1, _⟩ => show win1_3.index t (1 : Fin 2) * 2048 + 1 * q.val = 2048 * ((t.val / 16) % 2) + q.val; rw [e1]; omega

/-- What point t writes back, where k = 15, is block t of `G1`. -/
theorem flushed1_eq (c : Dev nD) (t : Fin cfg1.N) (hf : (cfg1.win 3).flush t = true) :
    (dat1 V c).flushed 3 t = ((cfg1.win 3).blk t).view.read (Elt Ideal) (G1 V c) := by
  have h15 : t.val % 16 = 15 := (flush1_3 t).mp hf
  show (cfg1.win 3).cut (grid1.coords t) ((dat1 V c).after 3 t) = _
  rw [after1_3, outsAt1_fst V c t h15]
  funext j
  obtain ⟨p, q, rfl⟩ : ∃ (p : Fin 1024) (q : Fin 2048), j = ix2 p q := ⟨j 0, j 1, eq_ix2 j⟩
  refine (Cert.KPay.pay3_at (acc1 V c t.val t.isLt) (bb V c t) p q).trans ?_
  rw [acc1_at V c t.val t.isLt p q, iblk1_2_at V c t q, View.read_apply]
  unfold G1
  rw [emb3_at t p q 0, emb3_at t p q 1, h15]
  congr 1
  unfold blockTerm
  exact Cert.KSum.sum_blocks16 (fun k => Xn V c (1024 * (t.val / 32) + p.val) k * Wn V c (2048 * ((t.val / 16) % 2) + q.val) k)

/-- An index of the result array is in point t's block iff each coordinate is in the block's range on its axis. -/
theorem mem_blk3 (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v5).slice (win1_3.rect t)).set ↔ _
  rw [View.set_slice_whole, Rect.mem_set_unit]
  exact Iff.rfl

/-- Every index of the result array is in some write-back point's block. -/
theorem cover3 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 256 := N_1
  refine ⟨⟨32 * ((i 0).val / 1024) + 16 * ((i 1).val / 2048) + 15, by rw [hN]; omega⟩, (flush1_3 _).mpr (by dsimp only; omega), ?_⟩
  rw [mem_blk3]
  obtain ⟨-, -, -, -, -, -, e0, e1⟩ := idx1 ⟨32 * ((i 0).val / 1024) + 16 * ((i 1).val / 2048) + 15, by rw [hN]; omega⟩
  intro a
  match a with
  | ⟨0, _⟩ =>
    show win1_3.index _ (0 : Fin 2) * 1024 ≤ (i 0).val ∧ (i 0).val < win1_3.index _ (0 : Fin 2) * 1024 + 1024
    rw [e0]; dsimp only; omega
  | ⟨1, _⟩ =>
    show win1_3.index _ (1 : Fin 2) * 2048 ≤ (i 1).val ∧ (i 1).val < win1_3.index _ (1 : Fin 2) * 2048 + 2048
    rw [e1]; dsimp only; omega

/-- The result array after the launch. -/
theorem final1 (c : Dev nD) : (dat1 V c).arrAt 3 cfg1.N = G1 V c :=
  (dat1 V c).arrAt_eq_of_cover 3 (G1 V c) (fun t hf => flushed1_eq V c t hf) cover3

end Cert.KernelIdeal.Hand

end
-- ==== Proof.KIFinal0.lean ====
/-
  The first launch's result array as one function of the arguments.

  The weight sampler's grid has 32 points; at point t every window's block is rows 128 t .. 128 t + 127, all 4096
  columns, of its [4096, 4096] array, and the body stores  mu + softplus(rho) * eps  of the three input blocks, element
  by element. So what point t writes back is block t of the array  i ↦ mu(i) + softplus(rho(i)) * eps(i);  the 32
  blocks tile the array (row r lies in block r / 128); hence the array ends holding that function everywhere.
-/
import proofs.«109385_j36223754174952_2_alg».proof.Proof.KIVal2
import proofs.«109385_j36223754174952_2_alg».proof.Proof.KPay
import proofs.«109385_j36223754174952_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-- The sampled weight as one array: `mu + softplus(rho) * eps`, entry by entry, of the three weight-sized arguments
    as the launch finds them. -/
def sampled (c : Dev nD) : S4096x4096.Idx → EReal :=
  fun i => Cert.Spec.smp (V c main_arg1 i) (V c main_arg2 i) (V c main_arg5 i)

/-- The printed index maps, decided over the 32 grid points: every window's block at point `t` is block `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One element of one point's store: if the three loaded blocks read, at `j`, the three arrays at `i`, the stored
    block at `j` is the sampled weight at `i`. -/
theorem point_eq (x0 x1 x2 : Vec Ideal S128x4096 .f32) (a1 a2 a5 : S4096x4096.Idx → EReal) (j : S128x4096.Idx)
    (i : S4096x4096.Idx) (h0 : x0 j = a1 i) (h1 : x1 j = a2 i) (h2 : x2 j = a5 i) :
    k0_pay1 (F := Ideal) x0 x1 x2 j = Cert.Spec.smp (a1 i) (a2 i) (a5 i) := by
  obtain ⟨p, q, rfl⟩ : ∃ (p : Fin 128) (q : Fin 4096), j = ix2 p q := ⟨j 0, j 1, eq_ix2 j⟩
  rw [Cert.KPay.pay0_at, h0, h1, h2]

set_option maxHeartbeats 400000 in
/-- What point `t` writes back is block `t` of the sampled weight. -/
theorem flushed0_eq (c : Dev nD) (t : Fin cfg0.N) :
    (dat0 V c).flushed 3 t = ((cfg0.win 3).blk t).view.read (Elt Ideal) (sampled V c) := by
  show (cfg0.win 3).cut (grid0.coords t) ((dat0 V c).after 3 t) = _
  rw [after0_3, out0_3_eq]
  obtain ⟨e00, e01, e10, e11, e20, e21, e30, e31⟩ := idx_facts0 t
  funext j
  show k0_pay1 (F := Ideal) (iblk0 V c 0 t) (iblk0 V c 1 t) (iblk0 V c 2 t) j
      = sampled V c (((cfg0.win 3).blk t).view.emb j)
  refine point_eq (iblk0 V c 0 t) (iblk0 V c 1 t) (iblk0 V c 2 t) (V c main_arg1) (V c main_arg2) (V c main_arg5) j
    (((cfg0.win 3).blk t).view.emb j) ?_ ?_ ?_
  · show V c main_arg1 (((cfg0.win 0).blk t).view.emb j) = V c main_arg1 (((cfg0.win 3).blk t).view.emb j)
    refine congrArg _ (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 4096 + 1 * (j 1).val = win0_3.index t (1 : Fin 2) * 4096 + 1 * (j 1).val; omega
  · show V c main_arg2 (((cfg0.win 1).blk t).view.emb j) = V c main_arg2 (((cfg0.win 3).blk t).view.emb j)
    refine congrArg _ (funext fun a => Fin.ext ?_)
    match a with
    | ⟨0, _⟩ => show win0_1.index t (0 : Fin 2) * 128 + 1 * (j 0).val = win0_3.index t (0 : Fin 2) * 128 + 1 * (j 0).val; omega
    | ⟨1, _⟩ => show win0_1.index t (1 : Fin 2) * 4096 + 1 * (j 1).val = win0_3.index t (1 : Fin 2) * 4096 + 1 * (j 1).val; omega
  · show V c main_arg5 (((cfg0.win 2).blk t).view.emb j) = V c main_arg5 (((cfg0.win 3).blk t).view.emb j)
    refine congrArg _ (funext fun a => Fin.ext ?_)
    match a with
    | ⟨0, _⟩ => show win0_2.index t (0 : Fin 2) * 128 + 1 * (j 0).val = win0_3.index t (0 : Fin 2) * 128 + 1 * (j 0).val; omega
    | ⟨1, _⟩ => show win0_2.index t (1 : Fin 2) * 4096 + 1 * (j 1).val = win0_3.index t (1 : Fin 2) * 4096 + 1 * (j 1).val; omega

/-- An index of the array is in point `t`'s block iff each coordinate is in the block's range on its axis. -/
theorem mem_blk0 (t : Fin cfg0.N) (i : S4096x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v4).slice (win0_3.rect t)).set ↔ _
  rw [View.set_slice_whole, Rect.mem_set_unit]
  exact Iff.rfl

/-- Every index of the array is in some point's block: row `r` is in the block of point `r / 128`, which spans all
    4096 columns. -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 32 := N_0
  obtain ⟨t, ht⟩ : ∃ t : Fin cfg0.N, t.val = (i 0).val / 128 := ⟨⟨(i 0).val / 128, by rw [hN]; omega⟩, rfl⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 4096 ≤ (i 1).val ∧ (i 1).val < win0_3.index t (1 : Fin 2) * 4096 + 4096
    omega

/-- The array the first launch leaves: the sampled weight `mu + softplus(rho) * eps`, entry by entry, of the three
    weight-sized arguments as the launch finds them. -/
theorem final0 (c : Dev nD) :
    (dat0 V c).arrAt 3 cfg0.N = fun i => Cert.Spec.smp (V c main_arg1 i) (V c main_arg2 i) (V c main_arg5 i) :=
  (dat0 V c).arrAt_eq_of_cover 3 (sampled V c) (fun t _ => flushed0_eq V c t) (cover0)

end Cert.KernelIdeal.Hand

end
-- ==== Proof.KBias.lean ====
/-
  The bias row the kernel program prepares on the host is the sampled bias.

  Before its two kernel launches the program computes, with host operations, softplus of the bias-sized fifth argument
  (fourteen operations), multiplies it by the bias noise, adds the bias mean, and reshapes the vector [4096] to the row
  [1, 4096] the second kernel reads. Read at column o over the extended reals, with softplus's dead not-a-number guard
  dropped, that row holds  mu(o) + softplus(rho(o)) * eps(o)  =  `Cert.Spec.bia` at o.
-/
import proofs.«109385_j36223754174952_2_alg».proof.Proof.Gen.KernelIdeal.Launch
import proofs.«109385_j36223754174952_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KBias

open Idealize.ShloMosaic Idealize.ShloMosaic.TcCoe Idealize.SL.Sem Idealize.ShloMosaic.ValueIdx Idealize.ShloMosaic.StableHlo
open Cert.KernelIdeal Cert.KernelIdeal.Gen

/-- The zero constant broadcast along a vector: its entry at every index is `0`. -/
abbrev zvec : FVec Ideal S4096 .f32 :=
  broadcastInDim S4096 ![] bcast_S_S4096 (constant (F := Ideal) S_ .f32 0x00000000#32)

theorem zvec_at (i : S4096.Idx) : zvec i = (0 : EReal) := by
  unfold zvec
  rw [broadcastInDim_apply _ bcast_S_S4096 _ i (fun a => a.elim0) (fun a => a.elim0), constant_apply,
    Ideal.ofBits_zero_f32]

/-- The printed softplus at one extended real. Its guard compares `r - 0` with itself for inequality, which never
    holds on a linear order, so the select takes its last operand; and `r - 0 = r`. What is left is
    `max r 0 + log1p (exp (-(max r (-r))))`. -/
theorem softplus_at (r : EReal) :
    Scalar.select (Ideal.cmp .une (r - 0) (r - 0)) (r + 0)
      (max r 0 + Ideal.log1p (Ideal.exp (-(max (r - 0) (-(r - 0)))))) = Cert.Spec.sp r := by
  have h : Ideal.cmp .une (r - 0) (r - 0) = 0#1 := by simp [Ideal.cmp]
  rw [h, select_zero, sub_zero]
  rfl

/-- The printed softplus of a vector, read at column `o`. -/
theorem softplus_vec_at (a : FVec Ideal S4096 .f32) (o : Fin 4096) :
    (select (cmpf .une (subf a zvec) (subf a zvec)) (addf a zvec)
      (addf (maximumf a zvec) (Host.log1p (Host.exp (Host.negf (Host.absf (subf a zvec))))))) (ix1 o)
      = Cert.Spec.sp (a (ix1 o)) := by
  show Scalar.select (FloatOps.cmpf .une (FloatOps.subf (a (ix1 o)) (zvec (ix1 o))) (FloatOps.subf (a (ix1 o)) (zvec (ix1 o))))
      (FloatOps.addf (a (ix1 o)) (zvec (ix1 o)))
      (FloatOps.addf (FloatOps.maximumf (a (ix1 o)) (zvec (ix1 o)))
        (FloatOps.hostUnary .log1p (FloatOps.hostUnary .exp (FloatOps.hostNegf (FloatOps.hostAbsf
          (FloatOps.subf (a (ix1 o)) (zvec (ix1 o)))))))) = _
  rw [zvec_at]
  simp only [Ideal.subf_def, Ideal.addf_def, Ideal.maximumf_def, Ideal.hostUnary_log1p_def, Ideal.hostUnary_exp_def,
    Ideal.hostNegf_def, Ideal.hostAbsf_def, Ideal.negf_def, Ideal.absf_def, Ideal.cmpf_def]
  exact softplus_at _

set_option maxHeartbeats 400000 in
/-- What the first stretch of host operations leaves in its result: the printed softplus of the fifth argument. -/
theorem head_v0 (V0 : Valuation τ sig (Elt Ideal)) :
    (StableHlo.after (hostOps0 (F := Ideal)) V0 (Proc.devRef .tc main_v0) : FVec Ideal S4096 .f32)
      = select (cmpf .une (subf (V0 (Proc.devRef .tc main_arg4) : FVec Ideal S4096 .f32) zvec) (subf (V0 (Proc.devRef .tc main_arg4) : FVec Ideal S4096 .f32) zvec))
          (addf (V0 (Proc.devRef .tc main_arg4) : FVec Ideal S4096 .f32) zvec)
          (addf (maximumf (V0 (Proc.devRef .tc main_arg4) : FVec Ideal S4096 .f32) zvec)
            (Host.log1p (Host.exp (Host.negf (Host.absf (subf (V0 (Proc.devRef .tc main_arg4) : FVec Ideal S4096 .f32) zvec)))))) := by
  after_results_simp
  rfl

set_option maxHeartbeats 400000 in
/-- The first stretch writes neither the bias mean nor the bias noise. -/
theorem head_arg3 (V0 : Valuation τ sig (Elt Ideal)) :
    StableHlo.after (hostOps0 (F := Ideal)) V0 (Proc.devRef .tc main_arg3) = V0 (Proc.devRef .tc main_arg3) := by
  after_results_simp

set_option maxHeartbeats 400000 in
theorem head_arg6 (V0 : Valuation τ sig (Elt Ideal)) :
    StableHlo.after (hostOps0 (F := Ideal)) V0 (Proc.devRef .tc main_arg6) = V0 (Proc.devRef .tc main_arg6) := by
  after_results_simp

set_option maxHeartbeats 400000 in
/-- What the second stretch leaves in the reshaped bias, from any contents `W`: the row `[1, 4096]` cast of
    `arg3 + v0 * arg6`. -/
theorem tail_v3 (W : Valuation τ sig (Elt Ideal)) :
    (StableHlo.after (hostOps0_1 (F := Ideal)) W (Proc.devRef .tc main_v3) : FVec Ideal S1x4096 .f32)
      = (shapeCast S1x4096 (addf (W (Proc.devRef .tc main_arg3) : FVec Ideal S4096 .f32)
          (mulf (W (Proc.devRef .tc main_v0) : FVec Ideal S4096 .f32) (W (Proc.devRef .tc main_arg6) : FVec Ideal S4096 .f32)))
          shapeCasts_S4096_S1x4096 : FVec Ideal S1x4096 .f32) := by
  after_results
  rfl

/-- A vector `[4096]` cast to the row `[1, 4096]` reads, at `(0, o)`, the vector at `o`: both have row-major
    position `o`. -/
theorem row_cast_at (x : FVec Ideal S4096 .f32) (o : Fin 4096) :
    shapeCast S1x4096 x shapeCasts_S4096_S1x4096 (ix2 (0 : Fin 1) o) = x (ix1 o) :=
  shapeCast_apply x shapeCasts_S4096_S1x4096 _ _ (by
    rw [Shape.rowMajor_val_two, Shape.rowMajor_val_one]
    show o.val = 0 * 4096 + o.val
    rw [Nat.zero_mul, Nat.zero_add])

set_option maxHeartbeats 400000 in
/-- The bias row the two stretches of host operations hand to the kernels, read at column `o`, is the sampled bias
    `mu + softplus(rho) * eps` of the arguments' contents before them. -/
theorem bias_read (V0 : Valuation τ sig (Elt Ideal)) (o : Fin 4096) :
    (StableHlo.after (hostOps0_1 (F := Ideal)) (StableHlo.after (hostOps0 (F := Ideal)) V0) (Proc.devRef .tc main_v3)
        : S1x4096.Idx → EReal) (ix2 (0 : Fin 1) o)
      = Cert.Spec.bia (V0 (Proc.devRef .tc main_arg3)) (V0 (Proc.devRef .tc main_arg4)) (V0 (Proc.devRef .tc main_arg6)) o := by
  rw [tail_v3, head_v0, head_arg3, head_arg6, row_cast_at, addf_apply, mulf_apply, softplus_vec_at]
  rfl

end Cert.KBias

end
-- ==== Proof.KIValue.lean ====
/-
  The idealized kernel's result is the layer's output of its arguments.  The matrix-product launch reads three arrays:
  the activations, which nothing before it writes; the weight array, which the first launch filled, block by block,
  with  mu + softplus(rho) * eps;  and the bias row, which the host lines computed the same way.  Its result array
  holds, at (r, o), the row of the activations against the row of that weight plus that bias: `Cert.Spec.out`.
-/
import proofs.«109385_j36223754174952_2_alg».proof.Proof.KIFrame
import proofs.«109385_j36223754174952_2_alg».proof.Proof.KIFinal1
import proofs.«109385_j36223754174952_2_alg».proof.Proof.KIFinal0
import proofs.«109385_j36223754174952_2_alg».proof.Proof.KBias
import proofs.«109385_j36223754174952_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- An argument no launch writes and no host line writes is, entering the first launch, as launched. -/
theorem V2_arg (c : Dev nD) (b : Ref sig .tc) (h1 : b ∉ Gen.hostOps0_1_W) (h0 : b ∉ Gen.hostOps0_W) :
    Gen.V2 m c (Proc.devRef .tc b) = m ((c : Thread nD τ).loc b) :=
  (Gen.V2_of m c b h1).trans ((Gen.V1_of m c b h0).trans rfl)

/-- The activations, entering the second launch. -/
theorem X_eq (c : Dev nD) : V3r m c main_arg0 = m ((c : Thread nD τ).loc main_arg0) :=
  (W3_of_ne m c main_arg0 (by decide)).trans (V2_arg m c main_arg0 (by decide) (by decide))

/-- The weight array, entering the second launch: what the first launch wrote. -/
theorem W_eq (c : Dev nD) : (V3r m c main_v4 : S4096x4096.Idx → EReal)
    = fun i => Cert.Spec.smp ((m ((c : Thread nD τ).loc main_arg1) : S4096x4096.Idx → EReal) i) ((m ((c : Thread nD τ).loc main_arg2) : S4096x4096.Idx → EReal) i)
        ((m ((c : Thread nD τ).loc main_arg5) : S4096x4096.Idx → EReal) i) := by
  refine (W3_arr m c 3).trans ((final0 (V2r m) c).trans ?_)
  funext i
  show Cert.Spec.smp (Gen.V2 m c (Proc.devRef .tc main_arg1) i) (Gen.V2 m c (Proc.devRef .tc main_arg2) i) (Gen.V2 m c (Proc.devRef .tc main_arg5) i) = _
  rw [V2_arg m c main_arg1 (by decide) (by decide), V2_arg m c main_arg2 (by decide) (by decide), V2_arg m c main_arg5 (by decide) (by decide)]

/-- The bias row, entering the second launch: what the host lines computed. -/
theorem B_eq (c : Dev nD) (o : Fin 4096) : (V3r m c main_v3 : S1x4096.Idx → EReal) (ix2 (0 : Fin 1) o)
    = Cert.Spec.bia (m ((c : Thread nD τ).loc main_arg3)) (m ((c : Thread nD τ).loc main_arg4)) (m ((c : Thread nD τ).loc main_arg6)) o := by
  have e : V3r m c main_v3 = Gen.V2 m c (Proc.devRef .tc main_v3) := W3_of_ne m c main_v3 (by decide)
  rw [e]
  exact Cert.KBias.bias_read (Gen.V0 m c) o

/-- The result array is the layer's output of the arguments. -/
theorem G1_eq (c : Dev nD) : G1 (V3r m) c
    = Cert.Spec.out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  funext i
  have h0 : (i 0).val < 8192 := (i 0).isLt
  have h1 : (i 1).val < 4096 := (i 1).isLt
  unfold G1 Cert.Spec.out Cert.Spec.outAt
  congr 1
  · refine Finset.sum_congr rfl fun k _ => ?_
    have hk : k.val < 4096 := k.isLt
    unfold Xn Wn Cert.Spec.wgt
    rw [dif_pos ⟨h0, hk⟩, dif_pos ⟨h1, hk⟩, X_eq m c, W_eq m c]
    rfl
  · unfold Bn
    rw [dif_pos h1]
    exact B_eq m c (i 1)

/-- Every weakly fair execution of the idealized kernel terminates with the result array at the layer's output of the
    arguments and the arguments unchanged. -/
theorem run_out (ρ : Dev nD → PrngReg) : θ_run defs (onTc (τ := τ) (main (F := Ideal))) ⟨m, fun _ => 0, ρ⟩ (fun r => ∀ c : Dev nD,
      r.2.mem ((c.tc : Thread nD τ).loc main_v5)
        = Cert.Spec.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1.trans (final1 (V3r m) c)).trans (G1_eq m c), (h c).2⟩) (run_result m ρ)

end Cert.KernelIdeal.Hand

end
-- ==== Proof.RefSide.lean ====
/-
  The reference program's result is the layer's output `Cert.Spec.out` of its arguments.

  The reference samples the weight as  arg1 + softplus(arg2) * arg5  and the bias as  arg3 + softplus(arg4) * arg6,
  contracts the second axis of the activations with the second axis of the sampled weight, and adds the sampled bias
  along the rows. Read one element at a time over the extended reals: softplus's not-a-number guard is dead, what
  remains of it is `Cert.Spec.sp`; the contraction at row b, column o is the sum over k of x(b,k) * w(o,k); the two
  broadcasts of the bias read it at column o. So the element at (b, o) is `Cert.Spec.outAt` there.
-/
import proofs.«109385_j36223754174952_2_alg».proof.Defs
import proofs.«109385_j36223754174952_2_alg».proof.Proof.Gen.ReferenceIdeal.Run
import proofs.«109385_j36223754174952_2_alg».proof.Proof.Gen.ReferenceIdeal.Read
import proofs.«109385_j36223754174952_2_alg».proof.Proof.Spec
import Idealize.ShloMosaic.PureOps.Ideal.Laws
import Idealize.ShloMosaic.Lib.ValueIdx
import Idealize.ShloMosaic.Lib.Pipeline.Value
import Idealize.ShloMosaic.Lib.StableHlo.Run

noncomputable section

namespace Cert.RefSide

open Idealize.ShloMosaic Idealize.ShloMosaic.TcCoe Idealize.SL.Sem Idealize.ShloMosaic.ValueIdx
open Cert.ReferenceIdeal Cert.ReferenceIdeal.Read

/-- The printed softplus at one extended real. Its guard compares `r - 0` with itself for inequality, which never
    holds on a linear order, so the select takes its last operand; and `r - 0 = r`. What is left is
    `max r 0 + log1p (exp (-(max r (-r))))`. -/
theorem softplus_at (r : EReal) :
    Scalar.select (Ideal.cmp .une (r - 0) (r - 0)) (r + 0)
      (max r 0 + Ideal.log1p (Ideal.exp (-(max (r - 0) (-(r - 0)))))) = Cert.Spec.sp r := by
  have h : Ideal.cmp .une (r - 0) (r - 0) = 0#1 := by simp [Ideal.cmp]
  rw [h, select_zero, sub_zero]
  rfl

/-- The reference's softplus of the bias-sized argument, at column `o`. -/
theorem bias_softplus_at (brho : FVec Ideal S4096 .f32) (o : Fin 4096) :
    val_main_v3 (F := Ideal) brho (ix1 o) = Cert.Spec.sp (brho (ix1 o)) := by
  rw [val_main_v3_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, Ideal.cmpf_def]
  exact softplus_at _

/-- The reference's softplus of the weight-sized argument, at row `o`, column `i`. -/
theorem weight_softplus_at (wrho : FVec Ideal S4096x4096 .f32) (o i : Fin 4096) :
    val_main_v0 (F := Ideal) wrho (ix2 o i) = Cert.Spec.sp (wrho (ix2 o i)) := by
  rw [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, Ideal.cmpf_def]
  exact softplus_at _

/-- The reference's sampled bias at column `o` is `mu + softplus(rho) * eps`. -/
theorem bias_at (bmu brho beps : FVec Ideal S4096 .f32) (o : Fin 4096) :
    val_main_v5 (F := Ideal) bmu brho beps (ix1 o) = Cert.Spec.bia bmu brho beps o := by
  rw [val_main_v5_apply, val_main_v4_apply, bias_softplus_at]
  rfl

/-- The reference's sampled weight at row `o`, column `i` is `mu + softplus(rho) * eps`. -/
theorem weight_at (wmu wrho weps : FVec Ideal S4096x4096 .f32) (o i : Fin 4096) :
    val_main_v2 (F := Ideal) wmu wrho weps (ix2 o i) = Cert.Spec.wgt wmu wrho weps o i := by
  rw [val_main_v2_apply, val_main_v1_apply, weight_softplus_at]
  rfl

/-- The reference's result is the layer's output: at row `b`, column `o` the contraction runs over the second axis of
    both operands, so it pairs `x (b, k)` with the sampled weight at `(o, k)`; the bias is broadcast along the rows, so
    the entry added is the sampled bias at `o`. -/
theorem result_eq (x : FVec Ideal S8192x4096 .f32) (wmu wrho : FVec Ideal S4096x4096 .f32) (bmu brho : FVec Ideal S4096 .f32)
    (weps : FVec Ideal S4096x4096 .f32) (beps : FVec Ideal S4096 .f32) :
    val_main_v9 (F := Ideal) x wmu wrho bmu brho weps beps = Cert.Spec.out x wmu wrho bmu brho weps beps := by
  funext j
  obtain ⟨b, o, rfl⟩ : ∃ (b : Fin 8192) (o : Fin 4096), j = ix2 b o := ⟨j 0, j 1, eq_ix2 j⟩
  have hl : ∀ k : Fin 4096, lidx_main_v6 (ix2 b o) k = ix2 b k := fun k =>
    funext fun a => by match a with | ⟨0, _⟩ => rfl | ⟨1, _⟩ => rfl
  have hr : ∀ k : Fin 4096, ridx_main_v6 (ix2 b o) k = ix2 o k := fun k =>
    funext fun a => by match a with | ⟨0, _⟩ => rfl | ⟨1, _⟩ => rfl
  have hb : idx_main_v7 (idx_main_v8 (ix2 b o)) = ix1 o :=
    funext fun a => by match a with | ⟨0, _⟩ => rfl
  rw [val_main_v9_apply, val_main_v6_apply, val_main_v8_apply, val_main_v7_apply, hb, bias_at]
  simp only [hl, hr, weight_at]
  rfl

/-- Every weakly fair execution of the reference program, at the ideal instance and from any memory with zero counters,
    terminates with its result holding the layer's output of its seven arguments' launch contents, the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v9)
          = Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono
    (fun _ h c => ⟨(h c).1.trans ((val_main_v9_eq _ _ _ _ _ _ _).trans (result_eq _ _ _ _ _ _ _)), (h c).2⟩)
    (Cert.ReferenceIdeal.Value.run (F := Ideal) m' g')

end Cert.RefSide

end
-- ==== Proof.lean ====
/-
  A Bayesian linear layer: every weight and bias entry is sampled as  mu + softplus(rho) * eps,  and the output at row b,
  column o is the row of x against the row of the sampled weight, plus the sampled bias.

  The kernel program does it in two launches after a few host lines that compute the bias row: the first launch writes
  the sampled weight, 128 rows per grid point; the second multiplies, 1024 × 2048 output tiles over 16 column blocks of
  256, adding each block's product into an accumulator it keeps from one grid point to the next, and where the last
  column block is reached stores the accumulator plus the bias row.  The reference program computes the sampled weight
  and bias on the host and takes one matrix product.

  Over the extended reals both results are the one function `Cert.Spec.out` of the seven arguments.  On the kernel's
  side: what each launch leaves in its result array is read off the launch's run block by block (the accumulator by
  induction on the grid position), and the 16 partial sums of 256 products regroup into the one sum of 4096 — a law of
  commutative addition, so no finiteness of the inputs is used.  On the reference's side the host operations are read
  index by index.  The two softplus spellings differ only in a guard that never fires on the extended reals and in
  writing the negation as a difference from zero.  Each program's frame — it runs to the end, faults nowhere, and leaves
  its arguments unchanged — comes from the same runs; the kernel's is proved once for any float values and read at the
  word-level and at the idealized instance.  The idealization rewrote nothing, so it is preserved trivially.
-/
import proofs.«109385_j36223754174952_2_alg».proof.Defs
import proofs.«109385_j36223754174952_2_alg».proof.Proof.Gen.Kernel
import proofs.«109385_j36223754174952_2_alg».proof.Proof.Gen.KernelIdeal
import proofs.«109385_j36223754174952_2_alg».proof.Proof.Gen.ReferenceIdeal
import proofs.«109385_j36223754174952_2_alg».proof.Proof.Gen.ReferenceIdeal.Run
import proofs.«109385_j36223754174952_2_alg».proof.Proof.Gen.Pre_finite_inputs
import proofs.«109385_j36223754174952_2_alg».proof.Proof.KFrame
import proofs.«109385_j36223754174952_2_alg».proof.Proof.KIFrame
import proofs.«109385_j36223754174952_2_alg».proof.Proof.KIValue
import proofs.«109385_j36223754174952_2_alg».proof.Proof.RefSide
import Idealize.ShloMosaic.Adequacy
import Idealize.ShloMosaic.Init

noncomputable section

namespace Cert.Proof

open Idealize.ShloMosaic Idealize.ShloMosaic.TcCoe Idealize.SL.Sem

namespace Claims

/-- The word-level kernel runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the layer's output of those arguments. -/
theorem algebraic : Cert.algebraic_KernelIdeal_ReferenceIdeal := by
  intro m ρ m' ρ' _ hagree
  refine ⟨_, Cert.KernelIdeal.Hand.run_out m ρ, ?_⟩
  refine (θ_run Cert.ReferenceIdeal.defs _ _).mono (fun _ h c => ⟨(h c).1.trans ?_, (h c).2⟩) (Cert.RefSide.run m' ρ')
  obtain ⟨e0, e1, e2, e3, e4, e5, e6⟩ := hagree c
  rw [e0, e1, e2, e3, e4, e5, e6]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
